-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x64 : Shape := ⟨2, ![100000, 64]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2x2000000 : Shape := ⟨2, ![2, 2000000]⟩
abbrev S2x500000 : Shape := ⟨2, ![2, 500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S128x64 .f32) (main_arg15 : FVec F S64 .f32) (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S128x64 .f32 := Host.absf main_arg14
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x1 .f32 := Host.absf main_arg16
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S64x64 .f32) (main_arg12 : FVec F S64x64 .f32) (main_arg13 : FVec F S64 .f32) (main_arg14 : FVec F S128x64 .f32) (main_arg15 : FVec F S64 .f32) (main_arg16 : FVec F S64x1 .f32) (main_arg17 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_v63 main_v67

def fn_part2 {F : FTy → Type} [FloatOps F] (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S128x64 .f32) (main_arg15 : FVec F S64 .f32) (main_arg16 : FVec F S64x1 .f32) (main_arg17 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_v48 main_v49 main_v50

def fn_part1 {F : FTy → Type} [FloatOps F] (main_arg4 : FVec F S64 .f32) (main_arg5 : FVec F S64x64 .f32) (main_arg6 : FVec F S128x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S128x64 .f32) (main_arg15 : FVec F S64 .f32) (main_arg16 : FVec F S64x1 .f32) (main_arg17 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100000x128 .f32) (main_arg1 : FVec F S100000x64 .f32) (main_arg2 : FVec F S128x64 .f32) (main_arg3 : FVec F S64x64 .f32) (main_arg4 : FVec F S64 .f32) (main_arg5 : FVec F S64x64 .f32) (main_arg6 : FVec F S128x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S128x64 .f32) (main_arg15 : FVec F S64 .f32) (main_arg16 : FVec F S64x1 .f32) (main_arg17 : FVec F S1 .f32) (main_arg18 : IVec S2x2000000 32) (main_arg19 : IVec S2x2000000 32) (main_arg20 : IVec S2x500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S100000x64 : Shape := ⟨2, ![100000, 64]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2x2000000 : Shape := ⟨2, ![2, 2000000]⟩
abbrev S2x500000 : Shape := ⟨2, ![2, 500000]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x128 : Shape := ⟨2, ![2000000, 128]⟩
abbrev S100000 : Shape := ⟨1, ![100000]⟩
abbrev S100000x1 : Shape := ⟨2, ![100000, 1]⟩
abbrev S1x64 : Shape := ⟨2, ![1, 64]⟩
abbrev S5000x128 : Shape := ⟨2, ![5000, 128]⟩
abbrev S5000x64 : Shape := ⟨2, ![5000, 64]⟩
abbrev S2000000x64 : Shape := ⟨2, ![2000000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S1x1 : Shape := ⟨2, ![1, 1]⟩
abbrev S10000x64 : Shape := ⟨2, ![10000, 64]⟩
abbrev S10000x1 : Shape := ⟨2, ![10000, 1]⟩

abbrev nBuf : Space → Nat
  | .hbm => 165
  | .vmem => 47
  | .smem => 0
  | _ => 0

abbrev hbmTy0_0 (i : Nat) : BufTy := match i % 128 with
  | 0 => ⟨S100000x128, .f32⟩
  | 1 => ⟨S100000x64, .f32⟩
  | 2 => ⟨S128x64, .f32⟩
  | 3 => ⟨S64x64, .f32⟩
  | 4 => ⟨S64, .f32⟩
  | 5 => ⟨S64x64, .f32⟩
  | 6 => ⟨S128x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S128x64, .f32⟩
  | 15 => ⟨S64, .f32⟩
  | 16 => ⟨S64x1, .f32⟩
  | 17 => ⟨S1, .f32⟩
  | 18 => ⟨S2x2000000, .i32⟩
  | 19 => ⟨S2x2000000, .i32⟩
  | 20 => ⟨S2x500000, .i32⟩
  | 21 => ⟨S1x2000000, .i32⟩
  | 22 => ⟨S2000000, .i32⟩
  | 23 => ⟨S1x2000000, .i32⟩
  | 24 => ⟨S2000000, .i32⟩
  | 25 => ⟨S1x2000000, .i32⟩
  | 26 => ⟨S2000000, .i32⟩
  | 27 => ⟨S1x2000000, .i32⟩
  | 28 => ⟨S2000000, .i32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S2000000x1, .i32⟩
  | 37 => ⟨S2000000x128, .f32⟩
  | 38 => ⟨S_, .f32⟩
  | 39 => ⟨S100000x128, .f32⟩
  | 40 => ⟨S2000000x1, .i32⟩
  | 41 => ⟨S100000x128, .f32⟩
  | 42 => ⟨S_, .f32⟩
  | 43 => ⟨S2000000, .f32⟩
  | 44 => ⟨S_, .f32⟩
  | 45 => ⟨S100000, .f32⟩
  | 46 => ⟨S2000000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S1x64, .f32⟩
  | 55 => ⟨S100000x64, .f32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x64, .f32⟩
  | 65 => ⟨S_, .f32⟩
  | 66 => ⟨S100000x64, .f32⟩
  | 67 => ⟨S2000000x1, .i32⟩
  | 68 => ⟨S100000x64, .f32⟩
  | 69 => ⟨S_, .f32⟩
  | 70 => ⟨S2000000, .f32⟩
  | 71 => ⟨S_, .f32⟩
  | 72 => ⟨S100000, .f32⟩
  | 73 => ⟨S2000000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x64, .f32⟩
  | 80 => ⟨S100000x64, .f32⟩
  | 81 => ⟨S1x64, .f32⟩
  | 82 => ⟨S100000x64, .f32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S2000000x64, .f32⟩
  | 92 => ⟨S_, .f32⟩
  | 93 => ⟨S100000x64, .f32⟩
  | 94 => ⟨S2000000x1, .i32⟩
  | 95 => ⟨S100000x64, .f32⟩
  | 96 => ⟨S_, .f32⟩
  | 97 => ⟨S2000000, .f32⟩
  | 98 => ⟨S_, .f32⟩
  | 99 => ⟨S100000, .f32⟩
  | 100 => ⟨S2000000x1, .i32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x64, .f32⟩
  | 107 => ⟨S100000x64, .f32⟩
  | 108 => ⟨S1x64, .f32⟩
  | 109 => ⟨S100000x64, .f32⟩
  | 110 => ⟨S_, .i32⟩
  | 111 => ⟨S2000000, .i32⟩
  | 112 => ⟨S2000000, .i1⟩
  | 113 => ⟨S_, .i32⟩
  | 114 => ⟨S2000000, .i32⟩
  | 115 => ⟨S2000000, .i32⟩
  | 116 => ⟨S2000000, .i32⟩
  | 117 => ⟨S2000000x1, .i32⟩
  | 118 => ⟨S2000000x64, .f32⟩
  | 119 => ⟨S_, .f32⟩
  | 120 => ⟨S100000x64, .f32⟩
  | 121 => ⟨S2000000x1, .i32⟩
  | 122 => ⟨S100000x64, .f32⟩
  | 123 => ⟨S_, .f32⟩
  | 124 => ⟨S2000000, .f32⟩
  | 125 => ⟨S_, .f32⟩
  | 126 => ⟨S100000, .f32⟩
  | 127 => ⟨S2000000x1, .i32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x64, .f32⟩
  | 6 => ⟨S100000x64, .f32⟩
  | 7 => ⟨S1x64, .f32⟩
  | 8 => ⟨S100000x64, .f32⟩
  | 9 => ⟨S1x500000, .i32⟩
  | 10 => ⟨S500000, .i32⟩
  | 11 => ⟨S1x500000, .i32⟩
  | 12 => ⟨S500000, .i32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000x64, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x64, .f32⟩
  | 31 => ⟨S64x64, .f32⟩
  | 32 => ⟨S64x64, .f32⟩
  | 33 => ⟨S1x64, .f32⟩
  | 34 => ⟨S1x1, .f32⟩
  | 35 => ⟨S500000x1, .f32⟩
  | 36 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x128, .f32⟩
  | .local _ .vmem, ⟨12, _⟩ => ⟨S5000x128, .f32⟩
  | .local _ .vmem, ⟨13, _⟩ => ⟨S64x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S64x64, .f32⟩
  | .local _ .vmem, ⟨42, _⟩ => ⟨S1x64, .f32⟩
  | .local _ .vmem, ⟨43, _⟩ => ⟨S64x1, .f32⟩
  | .local _ .vmem, ⟨44, _⟩ => ⟨S1x1, .f32⟩
  | .local _ .vmem, ⟨45, _⟩ => ⟨S10000x1, .f32⟩
  | .local _ .vmem, ⟨46, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_c_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_cst_8 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_9 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_10 : Ref sig .tc := ⟨.hbm, 83, rfl⟩
abbrev main_v50 : Ref sig .tc := ⟨.hbm, 84, rfl⟩
abbrev main_v51 : Ref sig .tc := ⟨.hbm, 85, rfl⟩
abbrev main_c_11 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_13 : Ref sig .tc := ⟨.hbm, 96, rfl⟩
abbrev main_v60 : Ref sig .tc := ⟨.hbm, 97, rfl⟩
abbrev main_cst_14 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_15 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_16 : Ref sig .tc := ⟨.hbm, 110, rfl⟩
abbrev main_v71 : Ref sig .tc := ⟨.hbm, 111, rfl⟩
abbrev main_v72 : Ref sig .tc := ⟨.hbm, 112, rfl⟩
abbrev main_c_17 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_18 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_19 : Ref sig .tc := ⟨.hbm, 123, rfl⟩
abbrev main_v81 : Ref sig .tc := ⟨.hbm, 124, rfl⟩
abbrev main_cst_20 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_21 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_c_22 : Ref sig .tc := ⟨.hbm, 141, rfl⟩
abbrev main_v96 : Ref sig .tc := ⟨.hbm, 142, rfl⟩
abbrev main_v97 : Ref sig .tc := ⟨.hbm, 143, rfl⟩
abbrev main_c_23 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_24 : Ref sig .tc := ⟨.hbm, 150, rfl⟩
abbrev main_v103 : Ref sig .tc := ⟨.hbm, 151, rfl⟩
abbrev main_v104 : Ref sig .tc := ⟨.hbm, 152, rfl⟩
abbrev main_c_25 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg7_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S128x64_S128x64_0_0 : ∀ a, (![0, 0] : Fin 2 → Nat) a + S128x64.size a ≤ S128x64.size a
  h_S128x64 : 0 < S128x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S128x64_S64x64_0_0 : S128x64.Slices ![0, 0] S64x64
  slices_S128x64_S64x64_64_0 : S128x64.Slices ![64, 0] S64x64
  shapeCasts_S1_S1x1 : S1.ShapeCasts S1x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S64x64_S64x64 : S64x64.ShapeCasts S64x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  gather_S100000x128_S2000000x1_S2000000x128_1_0_n_n_0_1_1128_wf : GatherDims.WF S100000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S500000x1_S500000x64_1_0_n_n_0_1_164_wf : GatherDims.WF S100000x64 S500000x1 S500000x64 [1] [0] [] [0] [] 1 ![1, 64]
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S500000x64.size a
  hwx4_0 : ∀ i : grid4.Coords, EltTy.bits .f32 = 32 ∨ (Rect.block (s := S500000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S500000x64.size a
  hwx4_1 : ∀ i : grid4.Coords, EltTy.bits .f32 = 32 ∨ (Rect.block (s := S500000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x1.size a ≤ S64x1.size a
  hwx4_5 : ∀ i : grid4.Coords, EltTy.bits .f32 = 32 ∨ (Rect.block (s := S64x1) S64x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x1.size a ≤ S500000x1.size a
  hwx4_7 : ∀ i : grid4.Coords, EltTy.bits .f32 = 32 ∨ (Rect.block (s := S500000x1) S10000x1.size (cc4_transform_7 i) (hinb4_7 i)).WholeWords (EltTy.packing .f32)

variable [Facts₀]

def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v89) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v102) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v110) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v111) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v112) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S64x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v113) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v114) S10000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S100000x64 : Shape := ⟨2, ![100000, 64]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2x2000000 : Shape := ⟨2, ![2, 2000000]⟩
abbrev S2x500000 : Shape := ⟨2, ![2, 500000]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x128 : Shape := ⟨2, ![2000000, 128]⟩
abbrev S100000 : Shape := ⟨1, ![100000]⟩
abbrev S100000x1 : Shape := ⟨2, ![100000, 1]⟩
abbrev S1x64 : Shape := ⟨2, ![1, 64]⟩
abbrev S2000000x64 : Shape := ⟨2, ![2000000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S500000x128 : Shape := ⟨2, ![500000, 128]⟩
abbrev S1x1 : Shape := ⟨2, ![1, 1]⟩

abbrev nBuf : Space → Nat
  | .hbm => 194
  | .vmem => 0
  | .smem => 0
  | _ => 0

abbrev hbmTy0_0 (i : Nat) : BufTy := match i % 128 with
  | 0 => ⟨S100000x128, .f32⟩
  | 1 => ⟨S100000x64, .f32⟩
  | 2 => ⟨S128x64, .f32⟩
  | 3 => ⟨S64x64, .f32⟩
  | 4 => ⟨S64, .f32⟩
  | 5 => ⟨S64x64, .f32⟩
  | 6 => ⟨S128x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S128x64, .f32⟩
  | 15 => ⟨S64, .f32⟩
  | 16 => ⟨S64x1, .f32⟩
  | 17 => ⟨S1, .f32⟩
  | 18 => ⟨S2x2000000, .i32⟩
  | 19 => ⟨S2x2000000, .i32⟩
  | 20 => ⟨S2x500000, .i32⟩
  | 21 => ⟨S1x2000000, .i32⟩
  | 22 => ⟨S2000000, .i32⟩
  | 23 => ⟨S1x2000000, .i32⟩
  | 24 => ⟨S2000000, .i32⟩
  | 25 => ⟨S1x2000000, .i32⟩
  | 26 => ⟨S2000000, .i32⟩
  | 27 => ⟨S1x2000000, .i32⟩
  | 28 => ⟨S2000000, .i32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S2000000x1, .i32⟩
  | 37 => ⟨S2000000x128, .f32⟩
  | 38 => ⟨S_, .f32⟩
  | 39 => ⟨S100000x128, .f32⟩
  | 40 => ⟨S2000000x1, .i32⟩
  | 41 => ⟨S100000x128, .f32⟩
  | 42 => ⟨S_, .f32⟩
  | 43 => ⟨S2000000, .f32⟩
  | 44 => ⟨S_, .f32⟩
  | 45 => ⟨S100000, .f32⟩
  | 46 => ⟨S2000000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S100000x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S_, .i32⟩
  | 64 => ⟨S2000000, .i32⟩
  | 65 => ⟨S2000000, .i1⟩
  | 66 => ⟨S_, .i32⟩
  | 67 => ⟨S2000000, .i32⟩
  | 68 => ⟨S2000000, .i32⟩
  | 69 => ⟨S2000000, .i32⟩
  | 70 => ⟨S2000000x1, .i32⟩
  | 71 => ⟨S2000000x64, .f32⟩
  | 72 => ⟨S_, .f32⟩
  | 73 => ⟨S100000x64, .f32⟩
  | 74 => ⟨S2000000x1, .i32⟩
  | 75 => ⟨S100000x64, .f32⟩
  | 76 => ⟨S_, .f32⟩
  | 77 => ⟨S2000000, .f32⟩
  | 78 => ⟨S_, .f32⟩
  | 79 => ⟨S100000, .f32⟩
  | 80 => ⟨S2000000x1, .i32⟩
  | 81 => ⟨S100000, .f32⟩
  | 82 => ⟨S_, .f32⟩
  | 83 => ⟨S100000, .f32⟩
  | 84 => ⟨S100000, .f32⟩
  | 85 => ⟨S100000x1, .f32⟩
  | 86 => ⟨S100000x64, .f32⟩
  | 87 => ⟨S100000x64, .f32⟩
  | 88 => ⟨S100000x64, .f32⟩
  | 89 => ⟨S100000x64, .f32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S_, .i32⟩
  | 98 => ⟨S2000000, .i32⟩
  | 99 => ⟨S2000000, .i1⟩
  | 100 => ⟨S_, .i32⟩
  | 101 => ⟨S2000000, .i32⟩
  | 102 => ⟨S2000000, .i32⟩
  | 103 => ⟨S2000000, .i32⟩
  | 104 => ⟨S2000000x1, .i32⟩
  | 105 => ⟨S2000000x64, .f32⟩
  | 106 => ⟨S_, .f32⟩
  | 107 => ⟨S100000x64, .f32⟩
  | 108 => ⟨S2000000x1, .i32⟩
  | 109 => ⟨S100000x64, .f32⟩
  | 110 => ⟨S_, .f32⟩
  | 111 => ⟨S2000000, .f32⟩
  | 112 => ⟨S_, .f32⟩
  | 113 => ⟨S100000, .f32⟩
  | 114 => ⟨S2000000x1, .i32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x64, .f32⟩
  | 121 => ⟨S100000x64, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i32⟩
  | 6 => ⟨S2000000, .i32⟩
  | 7 => ⟨S2000000x1, .i32⟩
  | 8 => ⟨S2000000x64, .f32⟩
  | 9 => ⟨S_, .f32⟩
  | 10 => ⟨S100000x64, .f32⟩
  | 11 => ⟨S2000000x1, .i32⟩
  | 12 => ⟨S100000x64, .f32⟩
  | 13 => ⟨S_, .f32⟩
  | 14 => ⟨S2000000, .f32⟩
  | 15 => ⟨S_, .f32⟩
  | 16 => ⟨S100000, .f32⟩
  | 17 => ⟨S2000000x1, .i32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x64, .f32⟩
  | 24 => ⟨S100000x64, .f32⟩
  | 25 => ⟨S100000x64, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S1x500000, .i32⟩
  | 32 => ⟨S500000, .i32⟩
  | 33 => ⟨S1x500000, .i32⟩
  | 34 => ⟨S500000, .i32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000x64, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x64, .f32⟩
  | 53 => ⟨S500000x128, .f32⟩
  | 54 => ⟨S500000x64, .f32⟩
  | 55 => ⟨S1x64, .f32⟩
  | 56 => ⟨S500000x64, .f32⟩
  | 57 => ⟨S500000x64, .f32⟩
  | 58 => ⟨S_, .f32⟩
  | 59 => ⟨S500000x64, .f32⟩
  | 60 => ⟨S500000x64, .f32⟩
  | 61 => ⟨S500000x1, .f32⟩
  | 62 => ⟨S1x1, .f32⟩
  | 63 => ⟨S500000x1, .f32⟩
  | 64 => ⟨S500000x1, .f32⟩
  | 65 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call0_cst : Ref sig .tc := ⟨.hbm, 60, rfl⟩
abbrev main_call0_v0 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_cst_8 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_9 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call1_cst : Ref sig .tc := ⟨.hbm, 94, rfl⟩
abbrev main_call1_v0 : Ref sig .tc := ⟨.hbm, 95, rfl⟩
abbrev main_v59 : Ref sig .tc := ⟨.hbm, 96, rfl⟩
abbrev main_c_10 : Ref sig .tc := ⟨.hbm, 97, rfl⟩
abbrev main_v60 : Ref sig .tc := ⟨.hbm, 98, rfl⟩
abbrev main_v61 : Ref sig .tc := ⟨.hbm, 99, rfl⟩
abbrev main_c_11 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_12 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_13 : Ref sig .tc := ⟨.hbm, 110, rfl⟩
abbrev main_v70 : Ref sig .tc := ⟨.hbm, 111, rfl⟩
abbrev main_cst_14 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_15 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_16 : Ref sig .tc := ⟨.hbm, 128, rfl⟩
abbrev main_v85 : Ref sig .tc := ⟨.hbm, 129, rfl⟩
abbrev main_v86 : Ref sig .tc := ⟨.hbm, 130, rfl⟩
abbrev main_c_17 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_18 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_19 : Ref sig .tc := ⟨.hbm, 141, rfl⟩
abbrev main_v95 : Ref sig .tc := ⟨.hbm, 142, rfl⟩
abbrev main_cst_20 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_21 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_c_22 : Ref sig .tc := ⟨.hbm, 163, rfl⟩
abbrev main_v114 : Ref sig .tc := ⟨.hbm, 164, rfl⟩
abbrev main_v115 : Ref sig .tc := ⟨.hbm, 165, rfl⟩
abbrev main_c_23 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_c_24 : Ref sig .tc := ⟨.hbm, 172, rfl⟩
abbrev main_v121 : Ref sig .tc := ⟨.hbm, 173, rfl⟩
abbrev main_v122 : Ref sig .tc := ⟨.hbm, 174, rfl⟩
abbrev main_c_25 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_call2_cst : Ref sig .tc := ⟨.hbm, 186, rfl⟩
abbrev main_call2_v0 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x128_S2000000x1_S2000000x128_1_0_n_n_0_1_1128_wf : GatherDims.WF S100000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S500000x1_S500000x64_1_0_n_n_0_1_164_wf : GatherDims.WF S100000x64 S500000x1 S500000x64 [1] [0] [] [0] [] 1 ![1, 64]
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.KRun.lean ====
/-
  The idealized kernel's run with its result named.

  @main is eleven segments: six stretches of host operations with five kernel launches between them. The buffer
  contents at each boundary are a fold from the launch memory: a host stretch applies its operations, a launch
  replaces each of its arrays by what its write-backs leave. Every weakly fair execution terminates with every
  unscoped buffer at the last boundary's contents; here that fact is kept for the result buffer as well as for
  the argument arrays, so that the result can be read off the fold.
-/
import proofs.«130146_j26018911879758_1_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v115) = W11 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v115 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c)⟩)

end Cert.KernelIdeal.RunV

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Sage.lean ====
/-
  One message-passing layer's dense part, and a sum over a joined axis.

  A layer combines an aggregated neighbour array A [M, K1] and the destination nodes' own features X [M, K2] by two
  weight matrices and a bias row:

      layer(A, X, Wl, Wr, b)[p, q] = (sum over k < K1 of A[p, k] * Wl[k, q]) + (sum over k < K2 of X[p, k] * Wr[k, q]) + b[0, q],

  optionally followed by a maximum with zero. Both programs compute exactly this on the extended reals: a kernel body
  as two matrix products into zero accumulators (operands narrowed to bf16, which changes nothing on the extended
  reals) plus a bias row repeated down the rows; the reference as two host contractions plus the bias broadcast.
  Addition and multiplication of extended reals are commutative and associative, which is all that is used: no
  finiteness hypothesis appears anywhere.

  The decoder's first layer differs in grouping only: the reference contracts the concatenation [zc | zr] (width
  K + K) with the whole weight matrix, the kernel contracts zc with the top K rows and zr with the bottom K rows and
  adds. `sum_join` is that regrouping.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«130146_j26018911879758_1_alg».proof.Proof.LibMatmulNN

noncomputable section

namespace Cert.Sage

open Idealize.ShloMosaic Idealize.ShloMosaic.ValueIdx

/-- Zero, spelt as both programs spell it (the f32 word of all zero bits). -/
def z0 : EReal := Ideal.ofBits .f32 0x00000000#32

variable {M K1 K2 N : ℕ}

/-- The layer at row p, output feature q. -/
def layerAt (A : (⟨2, ![M, K1]⟩ : Shape).Idx → EReal) (X : (⟨2, ![M, K2]⟩ : Shape).Idx → EReal)
    (Wl : (⟨2, ![K1, N]⟩ : Shape).Idx → EReal) (Wr : (⟨2, ![K2, N]⟩ : Shape).Idx → EReal)
    (b : (⟨2, ![1, N]⟩ : Shape).Idx → EReal) (p : Fin M) (q : Fin N) : EReal :=
  (∑ k : Fin K1, A (ix2 p k) * Wl (ix2 k q)) + (∑ k : Fin K2, X (ix2 p k) * Wr (ix2 k q)) + b (ix2 (0 : Fin 1) q)

/-- The layer as a whole array. -/
def layer (A : (⟨2, ![M, K1]⟩ : Shape).Idx → EReal) (X : (⟨2, ![M, K2]⟩ : Shape).Idx → EReal)
    (Wl : (⟨2, ![K1, N]⟩ : Shape).Idx → EReal) (Wr : (⟨2, ![K2, N]⟩ : Shape).Idx → EReal)
    (b : (⟨2, ![1, N]⟩ : Shape).Idx → EReal) : (⟨2, ![M, N]⟩ : Shape).Idx → EReal :=
  fun i => layerAt A X Wl Wr b (i 0) (i 1)

/-- The layer followed by the maximum with zero, as a whole array. -/
def layerRelu (A : (⟨2, ![M, K1]⟩ : Shape).Idx → EReal) (X : (⟨2, ![M, K2]⟩ : Shape).Idx → EReal)
    (Wl : (⟨2, ![K1, N]⟩ : Shape).Idx → EReal) (Wr : (⟨2, ![K2, N]⟩ : Shape).Idx → EReal)
    (b : (⟨2, ![1, N]⟩ : Shape).Idx → EReal) : (⟨2, ![M, N]⟩ : Shape).Idx → EReal :=
  fun i => max (layerAt A X Wl Wr b (i 0) (i 1)) z0

/-- A kernel body's spelling of the layer, read at (p, q): two matrix products into zeros of operands narrowed to
    bf16, added, plus the bias row repeated down the rows. -/
theorem body_apply (D1 : DotDims ⟨2, ![M, K1]⟩ ⟨2, ![K1, N]⟩ ⟨2, ![M, N]⟩) (h1 : D1 = DotDims.plain M K1 N)
    (D2 : DotDims ⟨2, ![M, K2]⟩ ⟨2, ![K2, N]⟩ ⟨2, ![M, N]⟩) (h2 : D2 = DotDims.plain M K2 N)
    (hn : FTy.bits .bf16 < FTy.bits .f32) (hbb : (⟨2, ![1, N]⟩ : Shape).Broadcasts ⟨2, ![M, N]⟩)
    (x0 : FVec Ideal ⟨2, ![M, K1]⟩ .f32) (x1 : FVec Ideal ⟨2, ![M, K2]⟩ .f32)
    (x2 : FVec Ideal ⟨2, ![K1, N]⟩ .f32) (x3 : FVec Ideal ⟨2, ![K2, N]⟩ .f32) (x4 : FVec Ideal ⟨2, ![1, N]⟩ .f32)
    (p : Fin M) (q : Fin N) :
    addf (addf (matmul D1 none (truncf .bf16 x0 hn) (truncf .bf16 x2 hn) (constant (F := Ideal) ⟨2, ![M, N]⟩ .f32 0x00000000#32))
        (matmul D2 none (truncf .bf16 x1 hn) (truncf .bf16 x3 hn) (constant (F := Ideal) ⟨2, ![M, N]⟩ .f32 0x00000000#32)))
      (broadcastTo ⟨2, ![M, N]⟩ x4 hbb) (ix2 p q)
      = layerAt x0 x1 x2 x3 x4 p q := by
  rw [addf_apply, addf_apply, broadcastTo_1b_ab_apply]
  simp only [matmul]
  rw [Cert.MatmulNN.matmul_zero_apply D1 h1, Cert.MatmulNN.matmul_zero_apply D2 h2]
  rfl

/-- The host's contraction of an [M, K] by a [K, N] operand, read at (p, q): the inner product of row p with column q. -/
theorem dot_apply {K : ℕ} {φ₁ φ₂ : FTy} (D : DotDims ⟨2, ![M, K]⟩ ⟨2, ![K, N]⟩ ⟨2, ![M, N]⟩) (hD : D = DotDims.plain M K N)
    (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  rw [Cert.MatmulNN.lhsIdx_plain, Cert.MatmulNN.rhsIdx_plain]

/-- A sum over a joined axis of width K + K is the sum over its first half plus the sum over its second half. -/
theorem sum_join {K : ℕ} (f : Fin (K + K) → EReal) :
    ∑ k : Fin (K + K), f k = (∑ k : Fin K, f (Fin.castAdd K k)) + ∑ k : Fin K, f (Fin.natAdd K k) :=
  Fin.sum_univ_add f

/-! ## The decoder: a hidden layer with the maximum with zero, then one output feature -/

/-- The decoder at row p (its one output column z): the hidden layer's 'N' features, each cut off below at zero,
    contracted with the output weights, plus the output bias. -/
def decAt {K : ℕ} (Zc Zr : (⟨2, ![M, K]⟩ : Shape).Idx → EReal) (Wa Wb : (⟨2, ![K, N]⟩ : Shape).Idx → EReal)
    (b1 : (⟨2, ![1, N]⟩ : Shape).Idx → EReal) (W2 : (⟨2, ![N, 1]⟩ : Shape).Idx → EReal)
    (b2 : (⟨2, ![1, 1]⟩ : Shape).Idx → EReal) (p : Fin M) (z : Fin 1) : EReal :=
  (∑ j : Fin N, max (layerAt Zc Zr Wa Wb b1 p j) z0 * W2 (ix2 j z)) + b2 (ix2 (0 : Fin 1) z)

/-- The decoder as a whole array of one column. -/
def dec {K : ℕ} (Zc Zr : (⟨2, ![M, K]⟩ : Shape).Idx → EReal) (Wa Wb : (⟨2, ![K, N]⟩ : Shape).Idx → EReal)
    (b1 : (⟨2, ![1, N]⟩ : Shape).Idx → EReal) (W2 : (⟨2, ![N, 1]⟩ : Shape).Idx → EReal)
    (b2 : (⟨2, ![1, 1]⟩ : Shape).Idx → EReal) : (⟨2, ![M, 1]⟩ : Shape).Idx → EReal :=
  fun i => decAt Zc Zr Wa Wb b1 W2 b2 (i 0) (i 1)

/-- The decoder kernel body's spelling, read at (p, z). -/
theorem dec_body_apply {K : ℕ} (D1 D2 : DotDims ⟨2, ![M, K]⟩ ⟨2, ![K, N]⟩ ⟨2, ![M, N]⟩) (h1 : D1 = DotDims.plain M K N)
    (h2 : D2 = DotDims.plain M K N)
    (D3 : DotDims ⟨2, ![M, N]⟩ ⟨2, ![N, 1]⟩ ⟨2, ![M, 1]⟩) (h3 : D3 = DotDims.plain M N 1)
    (hn : FTy.bits .bf16 < FTy.bits .f32) (hbb : (⟨2, ![1, N]⟩ : Shape).Broadcasts ⟨2, ![M, N]⟩)
    (hbb2 : (⟨2, ![1, 1]⟩ : Shape).Broadcasts ⟨2, ![M, 1]⟩)
    (x0 x1 : FVec Ideal ⟨2, ![M, K]⟩ .f32) (x2 x3 : FVec Ideal ⟨2, ![K, N]⟩ .f32) (x4 : FVec Ideal ⟨2, ![1, N]⟩ .f32)
    (x5 : FVec Ideal ⟨2, ![N, 1]⟩ .f32) (x6 : FVec Ideal ⟨2, ![1, 1]⟩ .f32) (p : Fin M) (z : Fin 1) :
    addf (matmul D3 none
        (truncf .bf16 (maximumf (addf (addf (matmul D1 none (truncf .bf16 x0 hn) (truncf .bf16 x2 hn) (constant (F := Ideal) ⟨2, ![M, N]⟩ .f32 0x00000000#32))
            (matmul D2 none (truncf .bf16 x1 hn) (truncf .bf16 x3 hn) (constant (F := Ideal) ⟨2, ![M, N]⟩ .f32 0x00000000#32)))
          (broadcastTo ⟨2, ![M, N]⟩ x4 hbb)) (broadcast ⟨2, ![M, N]⟩ (Scalar.ofBits (F := Ideal) .f32 0x00000000#32))) hn)
        (truncf .bf16 x5 hn) (constant (F := Ideal) ⟨2, ![M, 1]⟩ .f32 0x00000000#32))
      (broadcastTo ⟨2, ![M, 1]⟩ x6 hbb2) (ix2 p z)
      = decAt x0 x1 x2 x3 x4 x5 x6 p z := by
  rw [addf_apply, broadcastTo_1b_ab_apply]
  simp only [matmul]
  rw [Cert.MatmulNN.matmul_zero_apply D3 h3]
  unfold decAt
  refine congrArg (· + x6 (ix2 (0 : Fin 1) z)) (Finset.sum_congr rfl fun j _ => ?_)
  refine congrArg (· * x5 (ix2 j z)) ?_
  exact congrArg (fun e => max e z0) (body_apply D1 h1 D2 h2 hn hbb x0 x1 x2 x3 x4 p j)

/-- A sum over 128 positions is the sum over the first 64 plus the sum over the last 64. -/
theorem sum_join128 (f : Fin 128 → EReal) :
    ∑ k : Fin 128, f k = (∑ k : Fin 64, f ⟨k.val, by omega⟩) + ∑ k : Fin 64, f ⟨64 + k.val, by omega⟩ :=
  sum_join (K := 64) f

end Cert.Sage

end
-- ==== Proof.Reg0.lean ====
/-
  Kernel launch 0 of the idealized kernel: one dense layer over all 100000 rows, 5000 rows per grid point.

  At grid point t the body reads rows [5000 t, 5000 t + 5000) of the aggregated array and of the destination
  features, the two whole weight matrices and the bias row, and writes rows [5000 t, 5000 t + 5000) of the output:
  entry (p, q) of the block is the layer's value at row 5000 t + p, feature q, which depends on that one row of each
  input only. The twenty blocks tile the output, so after the launch the output array is the layer (followed by the maximum with zero)
  of the arrays the launch finds, as one whole-array function.
-/
import proofs.«130146_j26018911879758_1_alg».proof.Proof.Gen.KernelIdeal.Frame
import proofs.«130146_j26018911879758_1_alg».proof.Proof.Sage

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of the block: the layer of the loaded blocks at (p, q). -/
theorem pay_apply (x0 : FVec Ideal S5000x128 .f32) (x1 : FVec Ideal S5000x64 .f32) (x2 : FVec Ideal S128x64 .f32)
    (x3 : FVec Ideal S64x64 .f32) (x4 : FVec Ideal S1x64 .f32) (p : Fin 5000) (q : Fin 64) :
    k0_pay1 (F := Ideal) x0 x1 x2 x3 x4 (ix2 p q) = max (layerAt x0 x1 x2 x3 x4 p q) z0 := by
  unfold k0_pay1
  simp only [shapeCast_self]
  exact congrArg (fun e => max e z0) (body_apply _ rfl _ rfl _ _ x0 x1 x2 x3 x4 p q)

/-- The printed index maps over the grid: the row windows (0, 1 and the output 5) sit at block row t, the weight and
    bias windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (p : Fin 5000) : t.val * 5000 + p.val < 100000 := by
  have hN : grid0.N = 20 := N_0
  have ht : t.val < grid0.N := t.isLt
  have hp := p.isLt
  omega

/-! ## Each window's block at a point, read off its array -/

theorem blk0 (c : Dev nD) (t : Fin cfg0.N) (p : Fin 5000) (k : Fin 128) :
    iblk0 V c 0 t (ix2 p k) = V c main_v26 (ix2 (⟨t.val * 5000 + p.val, row_lt t p⟩ : Fin 100000) k) := by
  obtain ⟨e00, e01, -⟩ := idx_facts t
  show V c main_v26 (((cfg0.win 0).blk t).view.emb (ix2 p k)) = _
  refine congrArg (V c main_v26) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem blk1 (c : Dev nD) (t : Fin cfg0.N) (p : Fin 5000) (k : Fin 64) :
    iblk0 V c 1 t (ix2 p k) = V c main_arg1 (ix2 (⟨t.val * 5000 + p.val, row_lt t p⟩ : Fin 100000) k) := by
  obtain ⟨-, -, e10, e11, -⟩ := idx_facts t
  show V c main_arg1 (((cfg0.win 1).blk t).view.emb (ix2 p k)) = _
  refine congrArg (V c main_arg1) (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * k.val = k.val; omega

theorem blk2 (c : Dev nD) (t : Fin cfg0.N) (k : Fin 128) (q : Fin 64) :
    iblk0 V c 2 t (ix2 k q) = V c main_arg2 (ix2 k q) := by
  obtain ⟨-, -, -, -, e20, e21, -⟩ := idx_facts t
  show V c main_arg2 (((cfg0.win 2).blk t).view.emb (ix2 k q)) = _
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 64 + 1 * q.val = q.val; omega

theorem blk3 (c : Dev nD) (t : Fin cfg0.N) (k : Fin 64) (q : Fin 64) :
    iblk0 V c 3 t (ix2 k q) = V c main_arg3 (ix2 k q) := by
  obtain ⟨-, -, -, -, -, -, e30, e31, -⟩ := idx_facts t
  show V c main_arg3 (((cfg0.win 3).blk t).view.emb (ix2 k q)) = _
  refine congrArg (V c main_arg3) (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

theorem blk4 (c : Dev nD) (t : Fin cfg0.N) (z : Fin 1) (q : Fin 64) :
    iblk0 V c 4 t (ix2 z q) = V c main_v27 (ix2 z q) := by
  obtain ⟨-, -, -, -, -, -, -, -, e40, e41, -⟩ := idx_facts t
  show V c main_v27 (((cfg0.win 4).blk t).view.emb (ix2 z q)) = _
  refine congrArg (V c main_v27) (funext fun a => Fin.ext ?_)
  match a with
  | ⟨0, _⟩ => show win0_4.index t (0 : Fin 2) * 1 + 1 * z.val = z.val; omega
  | ⟨1, _⟩ => show win0_4.index t (1 : Fin 2) * 64 + 1 * q.val = q.val; omega

/-- Entry (p, q) of the output's block at point t is entry (5000 t + p, q) of the output array. -/
theorem emb5 (t : Fin cfg0.N) (p : Fin 5000) (q : Fin 64) :
    ((cfg0.win 5).blk t).view.emb (ix2 p q) = ix2 (⟨t.val * 5000 + p.val, row_lt t p⟩ : Fin 100000) q := by
  obtain ⟨-, -, -, -, -, -, -, -, -, -, e50, e51⟩ := idx_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 64 + 1 * q.val = q.val; omega

/-- What point t writes back is block t of the layer of the arrays the launch finds. -/
theorem flushed_eq (c : Dev nD) (t : Fin cfg0.N) :
    (dat0 V c).flushed 5 t = ((cfg0.win 5).blk t).view.read (Elt Ideal)
      (layerRelu (M := 100000) (V c main_v26) (V c main_arg1) (V c main_arg2) (V c main_arg3) (V c main_v27)) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x64) hz, View.ld_unit_zero (S := S128x64) hz,
    View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = layerRelu (M := 100000) (V c main_v26) (V c main_arg1) (V c main_arg2) (V c main_arg3) (V c main_v27) (((cfg0.win 5).blk t).view.emb (ix2 p q))
  rw [emb5 t p q]
  refine (pay_apply _ _ _ _ _ p q).trans ?_
  show max (layerAt (iblk0 V c 0 t) (iblk0 V c 1 t) (iblk0 V c 2 t) (iblk0 V c 3 t) (iblk0 V c 4 t) p q) z0
    = max (layerAt (M := 100000) (V c main_v26) (V c main_arg1) (V c main_arg2) (V c main_arg3) (V c main_v27) (⟨t.val * 5000 + p.val, row_lt t p⟩ : Fin 100000) q) z0
  unfold layerAt
  simp only [blk0 V c t, blk1 V c t, blk2 V c t, blk3 V c t, blk4 V c t]

/-- An index of the output array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- Row r of the output lies in the block of point r / 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  have hlt : (i 0).val / 5000 < grid0.N := by omega
  obtain ⟨-, -, -, -, -, -, -, -, -, -, e50, e51⟩ := idx_facts (⟨(i 0).val / 5000, hlt⟩ : Fin cfg0.N)
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e51]
    omega

/-- THE OUTPUT ARRAY after the launch: the layer of the arrays the launch finds. -/
theorem final (c : Dev nD) :
    (dat0 V c).arrAt 5 cfg0.N
      = layerRelu (M := 100000) (V c main_v26) (V c main_arg1) (V c main_arg2) (V c main_arg3) (V c main_v27) :=
  (dat0 V c).arrAt_eq_of_cover 5 _ (fun t _ => flushed_eq V c t) cover

end Cert.KernelIdeal.Reg0

end
-- ==== Proof.RefLayers.lean ====
/-
  The idealized reference, read layer by layer.

  Each of the reference's four message-passing layers is two host contractions, their sum, a bias vector broadcast
  first to one row and then down the rows, and (first two layers) a maximum with zero: at entry (p, q) that is the
  layer of Sage.lean applied to the reference's own aggregated array, the destination features, the two weight
  matrices and the bias vector viewed as one row. The decoder contracts the concatenation [zc | zr] of the two
  gathered embedding arrays with the whole 128-row weight matrix: position k < 64 of the joined axis reads zc and row
  k of the matrix, position 64 + k reads zr and row 64 + k, so the contraction is the sum of the two halves'.
-/
import proofs.«130146_j26018911879758_1_alg».proof.Proof.Gen.ReferenceIdeal.Read
import proofs.«130146_j26018911879758_1_alg».proof.Proof.Sage

set_option maxRecDepth 16384

noncomputable section

namespace Cert.ReferenceIdeal.RefValue

open Idealize.ShloMosaic Idealize.ShloMosaic.TcCoe Idealize.ShloMosaic.ValueIdx
open Cert.ReferenceIdeal Cert.ReferenceIdeal.Read Cert.Sage

/-- An index of a matrix with the given two coordinates. -/
theorem idx2_eq {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- An index of a vector with the given coordinate. -/
theorem idx1_eq {n : ℕ} (f : (⟨1, ![n]⟩ : Shape).Idx) (a : Fin n) (h0 : (f 0).val = a.val) : f = ix1 a :=
  funext fun d => Fin.ext (by
    match d with
    | ⟨0, _⟩ => exact h0)

variable (x0 : (⟨S100000x128, .f32⟩ : BufTy).Contents (Elt Ideal)) (x1 : (⟨S100000x64, .f32⟩ : BufTy).Contents (Elt Ideal)) (x2 : (⟨S128x64, .f32⟩ : BufTy).Contents (Elt Ideal))
  (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S128x64, .f32⟩ : BufTy).Contents (Elt Ideal))
  (x7 : (⟨S64, .f32⟩ : BufTy).Contents (Elt Ideal)) (x8 x9 : (⟨S64x64, .f32⟩ : BufTy).Contents (Elt Ideal)) (x10 : (⟨S64, .f32⟩ : BufTy).Contents (Elt Ideal)) (x11 x12 : (⟨S64x64, .f32⟩ : BufTy).Contents (Elt Ideal))
  (x13 : (⟨S64, .f32⟩ : BufTy).Contents (Elt Ideal)) (x14 : (⟨S128x64, .f32⟩ : BufTy).Contents (Elt Ideal)) (x15 : (⟨S64, .f32⟩ : BufTy).Contents (Elt Ideal)) (x16 : (⟨S64x1, .f32⟩ : BufTy).Contents (Elt Ideal))
  (x17 : (⟨S1, .f32⟩ : BufTy).Contents (Elt Ideal)) (x18 x19 : (⟨S2x2000000, .i32⟩ : BufTy).Contents (Elt Ideal)) (x20 : (⟨S2x500000, .i32⟩ : BufTy).Contents (Elt Ideal))

/-- Layer 1, customers to recipes: the recipes' hidden features. -/
theorem hr_eq (h : S64.ShapeCasts S1x64) :
    val_main_v33 (F := Ideal) x0 x1 x2 x3 x4 x18 = layerRelu (M := 100000) (val_main_v26 (F := Ideal) x0 x18) (x1) x2 x3 (shapeCast S1x64 x4 h) := by
  funext i
  obtain ⟨p, q, rfl⟩ : ∃ (p : Fin 100000) (q : Fin 64), i = ix2 p q := ⟨i 0, i 1, eq_ix2 i⟩
  rw [val_main_v33_apply, val_main_v32_apply, val_main_v29_apply, val_main_v27_apply, val_main_v28_apply, val_main_v31_apply, val_main_v30_apply, val_main_call0_v0_apply]
  have el : ∀ k : Fin 128, lidx_main_v27 (ix2 p q) k = ix2 p k := fun k => idx2_eq _ _ _ rfl rfl
  have er : ∀ k : Fin 128, ridx_main_v27 (ix2 p q) k = ix2 k q := fun k => idx2_eq _ _ _ rfl rfl
  have fl : ∀ k : Fin 64, lidx_main_v28 (ix2 p q) k = ix2 p k := fun k => idx2_eq _ _ _ rfl rfl
  have fr : ∀ k : Fin 64, ridx_main_v28 (ix2 p q) k = ix2 k q := fun k => idx2_eq _ _ _ rfl rfl
  have eb : idx_main_v30 (idx_main_v31 (ix2 p q)) = ix1 q := idx1_eq _ _ rfl
  simp only [el, er, fl, fr, eb]
  show _ = max (layerAt (M := 100000) (val_main_v26 (F := Ideal) x0 x18) (x1) x2 x3 (shapeCast S1x64 x4 h) p q) z0
  refine congrArg₂ max ?_ rfl
  unfold layerAt
  rw [shapeCast_a_1a_apply]
  rfl

/-- Layer 1, recipes to customers: the customers' hidden features. -/
theorem hc_eq (h : S64.ShapeCasts S1x64) :
    val_main_v59 (F := Ideal) x0 x1 x5 x6 x7 x19 = layerRelu (M := 100000) (val_main_v52 (F := Ideal) x1 x19) (x0) x5 x6 (shapeCast S1x64 x7 h) := by
  funext i
  obtain ⟨p, q, rfl⟩ : ∃ (p : Fin 100000) (q : Fin 64), i = ix2 p q := ⟨i 0, i 1, eq_ix2 i⟩
  rw [val_main_v59_apply, val_main_v58_apply, val_main_v55_apply, val_main_v53_apply, val_main_v54_apply, val_main_v57_apply, val_main_v56_apply, val_main_call1_v0_apply]
  have el : ∀ k : Fin 64, lidx_main_v53 (ix2 p q) k = ix2 p k := fun k => idx2_eq _ _ _ rfl rfl
  have er : ∀ k : Fin 64, ridx_main_v53 (ix2 p q) k = ix2 k q := fun k => idx2_eq _ _ _ rfl rfl
  have fl : ∀ k : Fin 128, lidx_main_v54 (ix2 p q) k = ix2 p k := fun k => idx2_eq _ _ _ rfl rfl
  have fr : ∀ k : Fin 128, ridx_main_v54 (ix2 p q) k = ix2 k q := fun k => idx2_eq _ _ _ rfl rfl
  have eb : idx_main_v56 (idx_main_v57 (ix2 p q)) = ix1 q := idx1_eq _ _ rfl
  simp only [el, er, fl, fr, eb]
  show _ = max (layerAt (M := 100000) (val_main_v52 (F := Ideal) x1 x19) (x0) x5 x6 (shapeCast S1x64 x7 h) p q) z0
  refine congrArg₂ max ?_ rfl
  unfold layerAt
  rw [shapeCast_a_1a_apply]
  rfl

/-- Layer 2, customers to recipes: the recipes' embeddings. -/
theorem zr_eq (h : S64.ShapeCasts S1x64) :
    val_main_v84 (F := Ideal) x0 x1 x2 x3 x4 x5 x6 x7 x8 x9 x10 x18 x19 = layer (M := 100000) (val_main_v78 (F := Ideal) x0 x1 x5 x6 x7 x18 x19) (val_main_v33 (F := Ideal) x0 x1 x2 x3 x4 x18) x8 x9 (shapeCast S1x64 x10 h) := by
  funext i
  obtain ⟨p, q, rfl⟩ : ∃ (p : Fin 100000) (q : Fin 64), i = ix2 p q := ⟨i 0, i 1, eq_ix2 i⟩
  rw [val_main_v84_apply, val_main_v81_apply, val_main_v79_apply, val_main_v80_apply, val_main_v83_apply, val_main_v82_apply]
  have el : ∀ k : Fin 64, lidx_main_v79 (ix2 p q) k = ix2 p k := fun k => idx2_eq _ _ _ rfl rfl
  have er : ∀ k : Fin 64, ridx_main_v79 (ix2 p q) k = ix2 k q := fun k => idx2_eq _ _ _ rfl rfl
  have fl : ∀ k : Fin 64, lidx_main_v80 (ix2 p q) k = ix2 p k := fun k => idx2_eq _ _ _ rfl rfl
  have fr : ∀ k : Fin 64, ridx_main_v80 (ix2 p q) k = ix2 k q := fun k => idx2_eq _ _ _ rfl rfl
  have eb : idx_main_v82 (idx_main_v83 (ix2 p q)) = ix1 q := idx1_eq _ _ rfl
  simp only [el, er, fl, fr, eb]
  show _ = layerAt (M := 100000) (val_main_v78 (F := Ideal) x0 x1 x5 x6 x7 x18 x19) (val_main_v33 (F := Ideal) x0 x1 x2 x3 x4 x18) x8 x9 (shapeCast S1x64 x10 h) p q
  unfold layerAt
  rw [shapeCast_a_1a_apply]
  rfl

/-- Layer 2, recipes to customers: the customers' embeddings. -/
theorem zc_eq (h : S64.ShapeCasts S1x64) :
    val_main_v109 (F := Ideal) x0 x1 x2 x3 x4 x5 x6 x7 x11 x12 x13 x18 x19 = layer (M := 100000) (val_main_v103 (F := Ideal) x0 x1 x2 x3 x4 x18 x19) (val_main_v59 (F := Ideal) x0 x1 x5 x6 x7 x19) x11 x12 (shapeCast S1x64 x13 h) := by
  funext i
  obtain ⟨p, q, rfl⟩ : ∃ (p : Fin 100000) (q : Fin 64), i = ix2 p q := ⟨i 0, i 1, eq_ix2 i⟩
  rw [val_main_v109_apply, val_main_v106_apply, val_main_v104_apply, val_main_v105_apply, val_main_v108_apply, val_main_v107_apply]
  have el : ∀ k : Fin 64, lidx_main_v104 (ix2 p q) k = ix2 p k := fun k => idx2_eq _ _ _ rfl rfl
  have er : ∀ k : Fin 64, ridx_main_v104 (ix2 p q) k = ix2 k q := fun k => idx2_eq _ _ _ rfl rfl
  have fl : ∀ k : Fin 64, lidx_main_v105 (ix2 p q) k = ix2 p k := fun k => idx2_eq _ _ _ rfl rfl
  have fr : ∀ k : Fin 64, ridx_main_v105 (ix2 p q) k = ix2 k q := fun k => idx2_eq _ _ _ rfl rfl
  have eb : idx_main_v107 (idx_main_v108 (ix2 p q)) = ix1 q := idx1_eq _ _ rfl
  simp only [el, er, fl, fr, eb]
  show _ = layerAt (M := 100000) (val_main_v103 (F := Ideal) x0 x1 x2 x3 x4 x18 x19) (val_main_v59 (F := Ideal) x0 x1 x5 x6 x7 x19) x11 x12 (shapeCast S1x64 x13 h) p q
  unfold layerAt
  rw [shapeCast_a_1a_apply]
  rfl

end Cert.ReferenceIdeal.RefValue

end
-- ==== Proof.KVal1.lean ====
/-
  The idealized kernel's buffers at the first two boundaries of @main, named by the reference's own stages.

  The kernel's first stretch of host operations is, operation for operation, the beginning of the reference: the edge
  lists' rows, the gather of the customers' features along the edges, the scatter-add over destination recipes, the
  edge counts, and the quotient. So each buffer it writes holds the reference's stage of the same arguments. The first
  launch then leaves the recipes' hidden features: the layer of those buffers, which is the reference's stage too.
  A buffer that a later segment reads is carried forward unchanged through each segment that does not write it.
-/
import proofs.«130146_j26018911879758_1_alg».proof.Proof.Gen.KernelIdeal.Frame
import proofs.«130146_j26018911879758_1_alg».proof.Proof.Gen.ReferenceIdeal.Read
import proofs.«130146_j26018911879758_1_alg».proof.Proof.Reg0
import proofs.«130146_j26018911879758_1_alg».proof.Proof.RefLayers

set_option maxRecDepth 16384
set_option quotPrecheck false

noncomputable section

namespace Cert.KernelIdeal.KVal

open Idealize.ShloMosaic Idealize.ShloMosaic.TcCoe Idealize.ShloMosaic.Tactic Idealize.SL.Sem
open Idealize.ShloMosaic.Pipeline (Dat Cfg Window)
open Cert.KernelIdeal Cert.KernelIdeal.Gen Cert.Sage

/-- No operation of the named stretch writes the buffer in question: each operation's one written buffer is another. -/
macro "host_untouched" ops:ident : tactic =>
  `(tactic| (simp only [$ops:ident, List.Forall, StableHlo.nullary_writes, StableHlo.unary_writes, StableHlo.binary_writes, StableHlo.ternary_writes, StableHlo.quaternary_writes, StableHlo.reshape_writes, StableHlo.binaryIndexed_writes, Finset.mem_singleton] <;> repeat' apply And.intro) <;> exact StableHlo.devRef_ne_of_ne (by decide))

variable (m : (ℓ : Loc nD τ sig) → Buf (Elt Ideal) ℓ) (ρ : Dev nD → PrngReg) (c : Dev nD)

local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)
local notation "X15" => m ((c : Thread nD τ).loc main_arg15)
local notation "X16" => m ((c : Thread nD τ).loc main_arg16)
local notation "X17" => m ((c : Thread nD τ).loc main_arg17)
local notation "X18" => m ((c : Thread nD τ).loc main_arg18)
local notation "X19" => m ((c : Thread nD τ).loc main_arg19)
local notation "X20" => m ((c : Thread nD τ).loc main_arg20)

/-! ## After the first host stretch -/

theorem W1_main_v1 : W1 m ρ c (Proc.devRef .tc main_v1) = Cert.ReferenceIdeal.Read.val_main_v1 (F := Ideal) X18 := by
  show StableHlo.after hostOps0 (W0 m ρ c) (Proc.devRef .tc main_v1) = _
  after_results_simp
  rfl

theorem W1_main_v3 : W1 m ρ c (Proc.devRef .tc main_v3) = Cert.ReferenceIdeal.Read.val_main_v3 (F := Ideal) X18 := by
  show StableHlo.after hostOps0 (W0 m ρ c) (Proc.devRef .tc main_v3) = _
  after_results_simp
  rfl

theorem W1_main_v5 : W1 m ρ c (Proc.devRef .tc main_v5) = Cert.ReferenceIdeal.Read.val_main_v5 (F := Ideal) X19 := by
  show StableHlo.after hostOps0 (W0 m ρ c) (Proc.devRef .tc main_v5) = _
  after_results_simp
  rfl

theorem W1_main_v7 : W1 m ρ c (Proc.devRef .tc main_v7) = Cert.ReferenceIdeal.Read.val_main_v7 (F := Ideal) X19 := by
  show StableHlo.after hostOps0 (W0 m ρ c) (Proc.devRef .tc main_v7) = _
  after_results_simp
  rfl

theorem W1_main_v26 : W1 m ρ c (Proc.devRef .tc main_v26) = Cert.ReferenceIdeal.Read.val_main_v26 (F := Ideal) X0 X18 := by
  show StableHlo.after hostOps0 (W0 m ρ c) (Proc.devRef .tc main_v26) = _
  after_results_simp
  rfl

theorem W1_main_v27 : W1 m ρ c (Proc.devRef .tc main_v27) = shapeCast S1x64 X4 shapeCasts_S64_S1x64 := by
  show StableHlo.after hostOps0 (W0 m ρ c) (Proc.devRef .tc main_v27) = _
  after_results_simp
  rfl

theorem W1_main_arg1 : W1 m ρ c (Proc.devRef .tc main_arg1) = X1 :=
  StableHlo.after_of_forall_not_mem (b := Proc.devRef .tc main_arg1) _ _ (List.forall_iff_forall_mem.mp (by host_untouched hostOps0))

theorem W1_main_arg2 : W1 m ρ c (Proc.devRef .tc main_arg2) = X2 :=
  StableHlo.after_of_forall_not_mem (b := Proc.devRef .tc main_arg2) _ _ (List.forall_iff_forall_mem.mp (by host_untouched hostOps0))

theorem W1_main_arg3 : W1 m ρ c (Proc.devRef .tc main_arg3) = X3 :=
  StableHlo.after_of_forall_not_mem (b := Proc.devRef .tc main_arg3) _ _ (List.forall_iff_forall_mem.mp (by host_untouched hostOps0))

theorem W1_main_arg7 : W1 m ρ c (Proc.devRef .tc main_arg7) = X7 :=
  StableHlo.after_of_forall_not_mem (b := Proc.devRef .tc main_arg7) _ _ (List.forall_iff_forall_mem.mp (by host_untouched hostOps0))

theorem W1_main_arg0 : W1 m ρ c (Proc.devRef .tc main_arg0) = X0 :=
  StableHlo.after_of_forall_not_mem (b := Proc.devRef .tc main_arg0) _ _ (List.forall_iff_forall_mem.mp (by host_untouched hostOps0))

theorem W1_main_arg5 : W1 m ρ c (Proc.devRef .tc main_arg5) = X5 :=
  StableHlo.after_of_forall_not_mem (b := Proc.devRef .tc main_arg5) _ _ (List.forall_iff_forall_mem.mp (by host_untouched hostOps0))

theorem W1_main_arg6 : W1 m ρ c (Proc.devRef .tc main_arg6) = X6 :=
  StableHlo.after_of_forall_not_mem (b := Proc.devRef .tc main_arg6) _ _ (List.forall_iff_forall_mem.mp (by host_untouched hostOps0))

theorem W1_main_arg10 : W1 m ρ c (Proc.devRef .tc main_arg10) = X10 :=
  StableHlo.after_of_forall_not_mem (b := Proc.devRef .tc main_arg10) _ _ (List.forall_iff_forall_mem.mp (by host_untouched hostOps0))

theorem W1_main_arg8 : W1 m ρ c (Proc.devRef .tc main_arg8) = X8 :=
  StableHlo.after_of_forall_not_mem (b := Proc.devRef .tc main_arg8) _ _ (List.forall_iff_forall_mem.mp (by host_untouched hostOps0))

theorem W1_main_arg9 : W1 m ρ c (Proc.devRef .tc main_arg9) = X9 :=
  StableHlo.after_of_forall_not_mem (b := Proc.devRef .tc main_arg9) _ _ (List.forall_iff_forall_mem.mp (by host_untouched hostOps0))

theorem W1_main_arg13 : W1 m ρ c (Proc.devRef .tc main_arg13) = X13 :=
  StableHlo.after_of_forall_not_mem (b := Proc.devRef .tc main_arg13) _ _ (List.forall_iff_forall_mem.mp (by host_untouched hostOps0))

theorem W1_main_arg11 : W1 m ρ c (Proc.devRef .tc main_arg11) = X11 :=
  StableHlo.after_of_forall_not_mem (b := Proc.devRef .tc main_arg11) _ _ (List.forall_iff_forall_mem.mp (by host_untouched hostOps0))

theorem W1_main_arg12 : W1 m ρ c (Proc.devRef .tc main_arg12) = X12 :=
  StableHlo.after_of_forall_not_mem (b := Proc.devRef .tc main_arg12) _ _ (List.forall_iff_forall_mem.mp (by host_untouched hostOps0))

theorem W1_main_arg20 : W1 m ρ c (Proc.devRef .tc main_arg20) = X20 :=
  StableHlo.after_of_forall_not_mem (b := Proc.devRef .tc main_arg20) _ _ (List.forall_iff_forall_mem.mp (by host_untouched hostOps0))

theorem W1_main_arg14 : W1 m ρ c (Proc.devRef .tc main_arg14) = X14 :=
  StableHlo.after_of_forall_not_mem (b := Proc.devRef .tc main_arg14) _ _ (List.forall_iff_forall_mem.mp (by host_untouched hostOps0))

theorem W1_main_arg15 : W1 m ρ c (Proc.devRef .tc main_arg15) = X15 :=
  StableHlo.after_of_forall_not_mem (b := Proc.devRef .tc main_arg15) _ _ (List.forall_iff_forall_mem.mp (by host_untouched hostOps0))

theorem W1_main_arg17 : W1 m ρ c (Proc.devRef .tc main_arg17) = X17 :=
  StableHlo.after_of_forall_not_mem (b := Proc.devRef .tc main_arg17) _ _ (List.forall_iff_forall_mem.mp (by host_untouched hostOps0))

theorem W1_main_arg16 : W1 m ρ c (Proc.devRef .tc main_arg16) = X16 :=
  StableHlo.after_of_forall_not_mem (b := Proc.devRef .tc main_arg16) _ _ (List.forall_iff_forall_mem.mp (by host_untouched hostOps0))

/-! ## After the first launch -/

theorem W2_main_v28 : W2 m ρ c (Proc.devRef .tc main_v28) = Cert.ReferenceIdeal.Read.val_main_v33 (F := Ideal) X0 X1 X2 X3 X4 X18 :=
  (W2_arr m ρ c 5).trans ((Cert.KernelIdeal.Reg0.final (V1 m ρ) c).trans (by
    show layerRelu (M := 100000) (W1 m ρ c (Proc.devRef .tc main_v26)) (W1 m ρ c (Proc.devRef .tc main_arg1)) (W1 m ρ c (Proc.devRef .tc main_arg2)) (W1 m ρ c (Proc.devRef .tc main_arg3)) (W1 m ρ c (Proc.devRef .tc main_v27)) = _
    rw [W1_main_v26 m ρ c, W1_main_arg1 m ρ c, W1_main_arg2 m ρ c, W1_main_arg3 m ρ c, W1_main_v27 m ρ c]
    exact (Cert.ReferenceIdeal.RefValue.hr_eq ..).symm))

theorem W2_main_v5 : W2 m ρ c (Proc.devRef .tc main_v5) = Cert.ReferenceIdeal.Read.val_main_v5 (F := Ideal) X19 :=
  (W2_of_ne m ρ c main_v5 (by decide)).trans (W1_main_v5 m ρ c)

theorem W2_main_v7 : W2 m ρ c (Proc.devRef .tc main_v7) = Cert.ReferenceIdeal.Read.val_main_v7 (F := Ideal) X19 :=
  (W2_of_ne m ρ c main_v7 (by decide)).trans (W1_main_v7 m ρ c)

theorem W2_main_arg1 : W2 m ρ c (Proc.devRef .tc main_arg1) = X1 :=
  ((W2_arr m ρ c 1).trans (((dat0 (V1 m ρ) c).arrAt_in 1 rfl _).trans (A_eq0 (V1 m ρ) c 1))).trans (W1_main_arg1 m ρ c)

theorem W2_main_arg7 : W2 m ρ c (Proc.devRef .tc main_arg7) = X7 :=
  (W2_of_ne m ρ c main_arg7 (by decide)).trans (W1_main_arg7 m ρ c)

theorem W2_main_arg0 : W2 m ρ c (Proc.devRef .tc main_arg0) = X0 :=
  (W2_of_ne m ρ c main_arg0 (by decide)).trans (W1_main_arg0 m ρ c)

theorem W2_main_arg5 : W2 m ρ c (Proc.devRef .tc main_arg5) = X5 :=
  (W2_of_ne m ρ c main_arg5 (by decide)).trans (W1_main_arg5 m ρ c)

theorem W2_main_arg6 : W2 m ρ c (Proc.devRef .tc main_arg6) = X6 :=
  (W2_of_ne m ρ c main_arg6 (by decide)).trans (W1_main_arg6 m ρ c)

theorem W2_main_v1 : W2 m ρ c (Proc.devRef .tc main_v1) = Cert.ReferenceIdeal.Read.val_main_v1 (F := Ideal) X18 :=
  (W2_of_ne m ρ c main_v1 (by decide)).trans (W1_main_v1 m ρ c)

theorem W2_main_v3 : W2 m ρ c (Proc.devRef .tc main_v3) = Cert.ReferenceIdeal.Read.val_main_v3 (F := Ideal) X18 :=
  (W2_of_ne m ρ c main_v3 (by decide)).trans (W1_main_v3 m ρ c)

theorem W2_main_arg10 : W2 m ρ c (Proc.devRef .tc main_arg10) = X10 :=
  (W2_of_ne m ρ c main_arg10 (by decide)).trans (W1_main_arg10 m ρ c)

theorem W2_main_arg8 : W2 m ρ c (Proc.devRef .tc main_arg8) = X8 :=
  (W2_of_ne m ρ c main_arg8 (by decide)).trans (W1_main_arg8 m ρ c)

theorem W2_main_arg9 : W2 m ρ c (Proc.devRef .tc main_arg9) = X9 :=
  (W2_of_ne m ρ c main_arg9 (by decide)).trans (W1_main_arg9 m ρ c)

theorem W2_main_arg13 : W2 m ρ c (Proc.devRef .tc main_arg13) = X13 :=
  (W2_of_ne m ρ c main_arg13 (by decide)).trans (W1_main_arg13 m ρ c)

theorem W2_main_arg11 : W2 m ρ c (Proc.devRef .tc main_arg11) = X11 :=
  (W2_of_ne m ρ c main_arg11 (by decide)).trans (W1_main_arg11 m ρ c)

theorem W2_main_arg12 : W2 m ρ c (Proc.devRef .tc main_arg12) = X12 :=
  (W2_of_ne m ρ c main_arg12 (by decide)).trans (W1_main_arg12 m ρ c)

theorem W2_main_arg20 : W2 m ρ c (Proc.devRef .tc main_arg20) = X20 :=
  (W2_of_ne m ρ c main_arg20 (by decide)).trans (W1_main_arg20 m ρ c)

theorem W2_main_arg14 : W2 m ρ c (Proc.devRef .tc main_arg14) = X14 :=
  (W2_of_ne m ρ c main_arg14 (by decide)).trans (W1_main_arg14 m ρ c)

theorem W2_main_arg15 : W2 m ρ c (Proc.devRef .tc main_arg15) = X15 :=
  (W2_of_ne m ρ c main_arg15 (by decide)).trans (W1_main_arg15 m ρ c)

theorem W2_main_arg17 : W2 m ρ c (Proc.devRef .tc main_arg17) = X17 :=
  (W2_of_ne m ρ c main_arg17 (by decide)).trans (W1_main_arg17 m ρ c)

theorem W2_main_arg16 : W2 m ρ c (Proc.devRef .tc main_arg16) = X16 :=
  (W2_of_ne m ρ c main_arg16 (by decide)).trans (W1_main_arg16 m ρ c)

end Cert.KernelIdeal.KVal

end
-- ==== Proof.Reg1.lean ====
/-
  Kernel launch 1 of the idealized kernel: one dense layer over all 100000 rows, 5000 rows per grid point.

  At grid point t the body reads rows [5000 t, 5000 t + 5000) of the aggregated array and of the destination
  features, the two whole weight matrices and the bias row, and writes rows [5000 t, 5000 t + 5000) of the output:
  entry (p, q) of the block is the layer's value at row 5000 t + p, feature q, which depends on that one row of each
  input only. The twenty blocks tile the output, so after the launch the output array is the layer (followed by the maximum with zero)
  of the arrays the launch finds, as one whole-array function.
-/
import proofs.«130146_j26018911879758_1_alg».proof.Proof.Gen.KernelIdeal.Frame
import proofs.«130146_j26018911879758_1_alg».proof.Proof.Sage

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of the block: the layer of the loaded blocks at (p, q). -/
theorem pay_apply (x0 : FVec Ideal S5000x64 .f32) (x1 : FVec Ideal S5000x128 .f32) (x2 : FVec Ideal S64x64 .f32)
    (x3 : FVec Ideal S128x64 .f32) (x4 : FVec Ideal S1x64 .f32) (p : Fin 5000) (q : Fin 64) :
    k1_pay1 (F := Ideal) x0 x1 x2 x3 x4 (ix2 p q) = max (layerAt x0 x1 x2 x3 x4 p q) z0 := by
  unfold k1_pay1
  simp only [shapeCast_self]
  exact congrArg (fun e => max e z0) (body_apply _ rfl _ rfl _ _ x0 x1 x2 x3 x4 p q)

/-- The printed index maps over the grid: the row windows (0, 1 and the output 5) sit at block row t, the weight and
    bias windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem row_lt (t : Fin cfg1.N) (p : Fin 5000) : t.val * 5000 + p.val < 100000 := by
  have hN : grid1.N = 20 := N_1
  have ht : t.val < grid1.N := t.isLt
  have hp := p.isLt
  omega

/-! ## Each window's block at a point, read off its array -/

theorem blk0 (c : Dev nD) (t : Fin cfg1.N) (p : Fin 5000) (k : Fin 64) :
    iblk1 V c 0 t (ix2 p k) = V c main_v47 (ix2 (⟨t.val * 5000 + p.val, row_lt t p⟩ : Fin 100000) k) := by
  obtain ⟨e00, e01, -⟩ := idx_facts t
  show V c main_v47 (((cfg1.win 0).blk t).view.emb (ix2 p k)) = _
  refine congrArg (V c main_v47) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

theorem blk1 (c : Dev nD) (t : Fin cfg1.N) (p : Fin 5000) (k : Fin 128) :
    iblk1 V c 1 t (ix2 p k) = V c main_arg0 (ix2 (⟨t.val * 5000 + p.val, row_lt t p⟩ : Fin 100000) k) := by
  obtain ⟨-, -, e10, e11, -⟩ := idx_facts t
  show V c main_arg0 (((cfg1.win 1).blk t).view.emb (ix2 p k)) = _
  refine congrArg (V c main_arg0) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

theorem blk2 (c : Dev nD) (t : Fin cfg1.N) (k : Fin 64) (q : Fin 64) :
    iblk1 V c 2 t (ix2 k q) = V c main_arg5 (ix2 k q) := by
  obtain ⟨-, -, -, -, e20, e21, -⟩ := idx_facts t
  show V c main_arg5 (((cfg1.win 2).blk t).view.emb (ix2 k q)) = _
  refine congrArg (V c main_arg5) (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

theorem blk3 (c : Dev nD) (t : Fin cfg1.N) (k : Fin 128) (q : Fin 64) :
    iblk1 V c 3 t (ix2 k q) = V c main_arg6 (ix2 k q) := by
  obtain ⟨-, -, -, -, -, -, e30, e31, -⟩ := idx_facts t
  show V c main_arg6 (((cfg1.win 3).blk t).view.emb (ix2 k q)) = _
  refine congrArg (V c main_arg6) (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

theorem blk4 (c : Dev nD) (t : Fin cfg1.N) (z : Fin 1) (q : Fin 64) :
    iblk1 V c 4 t (ix2 z q) = V c main_v48 (ix2 z q) := by
  obtain ⟨-, -, -, -, -, -, -, -, e40, e41, -⟩ := idx_facts t
  show V c main_v48 (((cfg1.win 4).blk t).view.emb (ix2 z q)) = _
  refine congrArg (V c main_v48) (funext fun a => Fin.ext ?_)
  match a with
  | ⟨0, _⟩ => show win1_4.index t (0 : Fin 2) * 1 + 1 * z.val = z.val; omega
  | ⟨1, _⟩ => show win1_4.index t (1 : Fin 2) * 64 + 1 * q.val = q.val; omega

/-- Entry (p, q) of the output's block at point t is entry (5000 t + p, q) of the output array. -/
theorem emb5 (t : Fin cfg1.N) (p : Fin 5000) (q : Fin 64) :
    ((cfg1.win 5).blk t).view.emb (ix2 p q) = ix2 (⟨t.val * 5000 + p.val, row_lt t p⟩ : Fin 100000) q := by
  obtain ⟨-, -, -, -, -, -, -, -, -, -, e50, e51⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 64 + 1 * q.val = q.val; omega

/-- What point t writes back is block t of the layer of the arrays the launch finds. -/
theorem flushed_eq (c : Dev nD) (t : Fin cfg1.N) :
    (dat1 V c).flushed 5 t = ((cfg1.win 5).blk t).view.read (Elt Ideal)
      (layerRelu (M := 100000) (V c main_v47) (V c main_arg0) (V c main_arg5) (V c main_arg6) (V c main_v48)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x128) hz, View.ld_unit_zero (S := S64x64) hz,
    View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = layerRelu (M := 100000) (V c main_v47) (V c main_arg0) (V c main_arg5) (V c main_arg6) (V c main_v48) (((cfg1.win 5).blk t).view.emb (ix2 p q))
  rw [emb5 t p q]
  refine (pay_apply _ _ _ _ _ p q).trans ?_
  show max (layerAt (iblk1 V c 0 t) (iblk1 V c 1 t) (iblk1 V c 2 t) (iblk1 V c 3 t) (iblk1 V c 4 t) p q) z0
    = max (layerAt (M := 100000) (V c main_v47) (V c main_arg0) (V c main_arg5) (V c main_arg6) (V c main_v48) (⟨t.val * 5000 + p.val, row_lt t p⟩ : Fin 100000) q) z0
  unfold layerAt
  simp only [blk0 V c t, blk1 V c t, blk2 V c t, blk3 V c t, blk4 V c t]

/-- An index of the output array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v49).slice (win1_5.rect t)).set ↔ _
  rw [View.set_slice_whole, Rect.mem_set_unit]
  exact Iff.rfl

/-- Row r of the output lies in the block of point r / 5000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 20 := N_1
  have hlt : (i 0).val / 5000 < grid1.N := by omega
  obtain ⟨-, -, -, -, -, -, -, -, -, -, e50, e51⟩ := idx_facts (⟨(i 0).val / 5000, hlt⟩ : Fin cfg1.N)
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    rw [e51]
    omega

/-- THE OUTPUT ARRAY after the launch: the layer of the arrays the launch finds. -/
theorem final (c : Dev nD) :
    (dat1 V c).arrAt 5 cfg1.N
      = layerRelu (M := 100000) (V c main_v47) (V c main_arg0) (V c main_arg5) (V c main_arg6) (V c main_v48) :=
  (dat1 V c).arrAt_eq_of_cover 5 _ (fun t _ => flushed_eq V c t) cover

end Cert.KernelIdeal.Reg1

end
-- ==== Proof.KVal2.lean ====
/-
  The idealized kernel's buffers at boundaries 3 and 4 of @main, named by the reference's own stages.

  The second host stretch aggregates the recipes' features over the recipe-to-customer edges exactly as the reference
  does; the second launch leaves the customers' hidden features, the layer of that aggregate and of the customers' own
  features, which is the reference's stage of the same arguments.
-/
import proofs.«130146_j26018911879758_1_alg».proof.Proof.KVal1
import proofs.«130146_j26018911879758_1_alg».proof.Proof.Reg1

set_option maxRecDepth 16384
set_option quotPrecheck false

noncomputable section

namespace Cert.KernelIdeal.KVal

open Idealize.ShloMosaic Idealize.ShloMosaic.TcCoe Idealize.ShloMosaic.Tactic Idealize.SL.Sem
open Idealize.ShloMosaic.Pipeline (Dat Cfg Window)
open Cert.KernelIdeal Cert.KernelIdeal.Gen Cert.Sage

variable (m : (ℓ : Loc nD τ sig) → Buf (Elt Ideal) ℓ) (ρ : Dev nD → PrngReg) (c : Dev nD)

local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)
local notation "X15" => m ((c : Thread nD τ).loc main_arg15)
local notation "X16" => m ((c : Thread nD τ).loc main_arg16)
local notation "X17" => m ((c : Thread nD τ).loc main_arg17)
local notation "X18" => m ((c : Thread nD τ).loc main_arg18)
local notation "X19" => m ((c : Thread nD τ).loc main_arg19)
local notation "X20" => m ((c : Thread nD τ).loc main_arg20)

/-! ## After host stretch 1 -/

theorem W3_main_v47 : W3 m ρ c (Proc.devRef .tc main_v47) = Cert.ReferenceIdeal.Read.val_main_v52 (F := Ideal) X1 X19 := by
  show StableHlo.after hostOps1 (W2 m ρ c) (Proc.devRef .tc main_v47) = _
  after_results_simp
  rw [W2_main_v5 m ρ c, W2_main_v7 m ρ c, W2_main_arg1 m ρ c]
  rfl

theorem W3_main_v48 : W3 m ρ c (Proc.devRef .tc main_v48) = shapeCast S1x64 X7 shapeCasts_S64_S1x64 := by
  show StableHlo.after hostOps1 (W2 m ρ c) (Proc.devRef .tc main_v48) = _
  after_results_simp
  rw [W2_main_arg7 m ρ c]
  rfl

theorem W3_main_arg0 : W3 m ρ c (Proc.devRef .tc main_arg0) = X0 :=
  (StableHlo.after_of_forall_not_mem (b := Proc.devRef .tc main_arg0) _ _ (List.forall_iff_forall_mem.mp (by host_untouched hostOps1))).trans (W2_main_arg0 m ρ c)

theorem W3_main_arg5 : W3 m ρ c (Proc.devRef .tc main_arg5) = X5 :=
  (StableHlo.after_of_forall_not_mem (b := Proc.devRef .tc main_arg5) _ _ (List.forall_iff_forall_mem.mp (by host_untouched hostOps1))).trans (W2_main_arg5 m ρ c)

theorem W3_main_arg6 : W3 m ρ c (Proc.devRef .tc main_arg6) = X6 :=
  (StableHlo.after_of_forall_not_mem (b := Proc.devRef .tc main_arg6) _ _ (List.forall_iff_forall_mem.mp (by host_untouched hostOps1))).trans (W2_main_arg6 m ρ c)

theorem W3_main_v1 : W3 m ρ c (Proc.devRef .tc main_v1) = Cert.ReferenceIdeal.Read.val_main_v1 (F := Ideal) X18 :=
  (StableHlo.after_of_forall_not_mem (b := Proc.devRef .tc main_v1) _ _ (List.forall_iff_forall_mem.mp (by host_untouched hostOps1))).trans (W2_main_v1 m ρ c)

theorem W3_main_v3 : W3 m ρ c (Proc.devRef .tc main_v3) = Cert.ReferenceIdeal.Read.val_main_v3 (F := Ideal) X18 :=
  (StableHlo.after_of_forall_not_mem (b := Proc.devRef .tc main_v3) _ _ (List.forall_iff_forall_mem.mp (by host_untouched hostOps1))).trans (W2_main_v3 m ρ c)

theorem W3_main_arg10 : W3 m ρ c (Proc.devRef .tc main_arg10) = X10 :=
  (StableHlo.after_of_forall_not_mem (b := Proc.devRef .tc main_arg10) _ _ (List.forall_iff_forall_mem.mp (by host_untouched hostOps1))).trans (W2_main_arg10 m ρ c)

theorem W3_main_v28 : W3 m ρ c (Proc.devRef .tc main_v28) = Cert.ReferenceIdeal.Read.val_main_v33 (F := Ideal) X0 X1 X2 X3 X4 X18 :=
  (StableHlo.after_of_forall_not_mem (b := Proc.devRef .tc main_v28) _ _ (List.forall_iff_forall_mem.mp (by host_untouched hostOps1))).trans (W2_main_v28 m ρ c)

theorem W3_main_arg8 : W3 m ρ c (Proc.devRef .tc main_arg8) = X8 :=
  (StableHlo.after_of_forall_not_mem (b := Proc.devRef .tc main_arg8) _ _ (List.forall_iff_forall_mem.mp (by host_untouched hostOps1))).trans (W2_main_arg8 m ρ c)

theorem W3_main_arg9 : W3 m ρ c (Proc.devRef .tc main_arg9) = X9 :=
  (StableHlo.after_of_forall_not_mem (b := Proc.devRef .tc main_arg9) _ _ (List.forall_iff_forall_mem.mp (by host_untouched hostOps1))).trans (W2_main_arg9 m ρ c)

theorem W3_main_v5 : W3 m ρ c (Proc.devRef .tc main_v5) = Cert.ReferenceIdeal.Read.val_main_v5 (F := Ideal) X19 :=
  (StableHlo.after_of_forall_not_mem (b := Proc.devRef .tc main_v5) _ _ (List.forall_iff_forall_mem.mp (by host_untouched hostOps1))).trans (W2_main_v5 m ρ c)

theorem W3_main_v7 : W3 m ρ c (Proc.devRef .tc main_v7) = Cert.ReferenceIdeal.Read.val_main_v7 (F := Ideal) X19 :=
  (StableHlo.after_of_forall_not_mem (b := Proc.devRef .tc main_v7) _ _ (List.forall_iff_forall_mem.mp (by host_untouched hostOps1))).trans (W2_main_v7 m ρ c)

theorem W3_main_arg13 : W3 m ρ c (Proc.devRef .tc main_arg13) = X13 :=
  (StableHlo.after_of_forall_not_mem (b := Proc.devRef .tc main_arg13) _ _ (List.forall_iff_forall_mem.mp (by host_untouched hostOps1))).trans (W2_main_arg13 m ρ c)

theorem W3_main_arg11 : W3 m ρ c (Proc.devRef .tc main_arg11) = X11 :=
  (StableHlo.after_of_forall_not_mem (b := Proc.devRef .tc main_arg11) _ _ (List.forall_iff_forall_mem.mp (by host_untouched hostOps1))).trans (W2_main_arg11 m ρ c)

theorem W3_main_arg12 : W3 m ρ c (Proc.devRef .tc main_arg12) = X12 :=
  (StableHlo.after_of_forall_not_mem (b := Proc.devRef .tc main_arg12) _ _ (List.forall_iff_forall_mem.mp (by host_untouched hostOps1))).trans (W2_main_arg12 m ρ c)

theorem W3_main_arg20 : W3 m ρ c (Proc.devRef .tc main_arg20) = X20 :=
  (StableHlo.after_of_forall_not_mem (b := Proc.devRef .tc main_arg20) _ _ (List.forall_iff_forall_mem.mp (by host_untouched hostOps1))).trans (W2_main_arg20 m ρ c)

theorem W3_main_arg14 : W3 m ρ c (Proc.devRef .tc main_arg14) = X14 :=
  (StableHlo.after_of_forall_not_mem (b := Proc.devRef .tc main_arg14) _ _ (List.forall_iff_forall_mem.mp (by host_untouched hostOps1))).trans (W2_main_arg14 m ρ c)

theorem W3_main_arg15 : W3 m ρ c (Proc.devRef .tc main_arg15) = X15 :=
  (StableHlo.after_of_forall_not_mem (b := Proc.devRef .tc main_arg15) _ _ (List.forall_iff_forall_mem.mp (by host_untouched hostOps1))).trans (W2_main_arg15 m ρ c)

theorem W3_main_arg17 : W3 m ρ c (Proc.devRef .tc main_arg17) = X17 :=
  (StableHlo.after_of_forall_not_mem (b := Proc.devRef .tc main_arg17) _ _ (List.forall_iff_forall_mem.mp (by host_untouched hostOps1))).trans (W2_main_arg17 m ρ c)

theorem W3_main_arg16 : W3 m ρ c (Proc.devRef .tc main_arg16) = X16 :=
  (StableHlo.after_of_forall_not_mem (b := Proc.devRef .tc main_arg16) _ _ (List.forall_iff_forall_mem.mp (by host_untouched hostOps1))).trans (W2_main_arg16 m ρ c)

/-! ## After launch 1 -/

theorem W4_main_v49 : W4 m ρ c (Proc.devRef .tc main_v49) = Cert.ReferenceIdeal.Read.val_main_v59 (F := Ideal) X0 X1 X5 X6 X7 X19 :=
  (W4_arr m ρ c 5).trans ((Cert.KernelIdeal.Reg1.final (V3 m ρ) c).trans (by
    show layerRelu (M := 100000) (W3 m ρ c (Proc.devRef .tc main_v47)) (W3 m ρ c (Proc.devRef .tc main_arg0)) (W3 m ρ c (Proc.devRef .tc main_arg5)) (W3 m ρ c (Proc.devRef .tc main_arg6)) (W3 m ρ c (Proc.devRef .tc main_v48)) = _
    rw [W3_main_v47 m ρ c, W3_main_arg0 m ρ c, W3_main_arg5 m ρ c, W3_main_arg6 m ρ c, W3_main_v48 m ρ c]
    exact (Cert.ReferenceIdeal.RefValue.hc_eq ..).symm))

theorem W4_main_v1 : W4 m ρ c (Proc.devRef .tc main_v1) = Cert.ReferenceIdeal.Read.val_main_v1 (F := Ideal) X18 :=
  (W4_of_ne m ρ c main_v1 (by decide)).trans (W3_main_v1 m ρ c)

theorem W4_main_v3 : W4 m ρ c (Proc.devRef .tc main_v3) = Cert.ReferenceIdeal.Read.val_main_v3 (F := Ideal) X18 :=
  (W4_of_ne m ρ c main_v3 (by decide)).trans (W3_main_v3 m ρ c)

theorem W4_main_arg10 : W4 m ρ c (Proc.devRef .tc main_arg10) = X10 :=
  (W4_of_ne m ρ c main_arg10 (by decide)).trans (W3_main_arg10 m ρ c)

theorem W4_main_v28 : W4 m ρ c (Proc.devRef .tc main_v28) = Cert.ReferenceIdeal.Read.val_main_v33 (F := Ideal) X0 X1 X2 X3 X4 X18 :=
  (W4_of_ne m ρ c main_v28 (by decide)).trans (W3_main_v28 m ρ c)

theorem W4_main_arg8 : W4 m ρ c (Proc.devRef .tc main_arg8) = X8 :=
  (W4_of_ne m ρ c main_arg8 (by decide)).trans (W3_main_arg8 m ρ c)

theorem W4_main_arg9 : W4 m ρ c (Proc.devRef .tc main_arg9) = X9 :=
  (W4_of_ne m ρ c main_arg9 (by decide)).trans (W3_main_arg9 m ρ c)

theorem W4_main_v5 : W4 m ρ c (Proc.devRef .tc main_v5) = Cert.ReferenceIdeal.Read.val_main_v5 (F := Ideal) X19 :=
  (W4_of_ne m ρ c main_v5 (by decide)).trans (W3_main_v5 m ρ c)

theorem W4_main_v7 : W4 m ρ c (Proc.devRef .tc main_v7) = Cert.ReferenceIdeal.Read.val_main_v7 (F := Ideal) X19 :=
  (W4_of_ne m ρ c main_v7 (by decide)).trans (W3_main_v7 m ρ c)

theorem W4_main_arg13 : W4 m ρ c (Proc.devRef .tc main_arg13) = X13 :=
  (W4_of_ne m ρ c main_arg13 (by decide)).trans (W3_main_arg13 m ρ c)

theorem W4_main_arg11 : W4 m ρ c (Proc.devRef .tc main_arg11) = X11 :=
  (W4_of_ne m ρ c main_arg11 (by decide)).trans (W3_main_arg11 m ρ c)

theorem W4_main_arg12 : W4 m ρ c (Proc.devRef .tc main_arg12) = X12 :=
  (W4_of_ne m ρ c main_arg12 (by decide)).trans (W3_main_arg12 m ρ c)

theorem W4_main_arg20 : W4 m ρ c (Proc.devRef .tc main_arg20) = X20 :=
  (W4_of_ne m ρ c main_arg20 (by decide)).trans (W3_main_arg20 m ρ c)

theorem W4_main_arg14 : W4 m ρ c (Proc.devRef .tc main_arg14) = X14 :=
  (W4_of_ne m ρ c main_arg14 (by decide)).trans (W3_main_arg14 m ρ c)

theorem W4_main_arg15 : W4 m ρ c (Proc.devRef .tc main_arg15) = X15 :=
  (W4_of_ne m ρ c main_arg15 (by decide)).trans (W3_main_arg15 m ρ c)

theorem W4_main_arg17 : W4 m ρ c (Proc.devRef .tc main_arg17) = X17 :=
  (W4_of_ne m ρ c main_arg17 (by decide)).trans (W3_main_arg17 m ρ c)

theorem W4_main_arg16 : W4 m ρ c (Proc.devRef .tc main_arg16) = X16 :=
  (W4_of_ne m ρ c main_arg16 (by decide)).trans (W3_main_arg16 m ρ c)

end Cert.KernelIdeal.KVal

end
-- ==== Proof.Reg2.lean ====
/-
  Kernel launch 2 of the idealized kernel: one dense layer over all 100000 rows, 5000 rows per grid point.

  At grid point t the body reads rows [5000 t, 5000 t + 5000) of the aggregated array and of the destination
  features, the two whole weight matrices and the bias row, and writes rows [5000 t, 5000 t + 5000) of the output:
  entry (p, q) of the block is the layer's value at row 5000 t + p, feature q, which depends on that one row of each
  input only. The twenty blocks tile the output, so after the launch the output array is the layer
  of the arrays the launch finds, as one whole-array function.
-/
import proofs.«130146_j26018911879758_1_alg».proof.Proof.Gen.KernelIdeal.Frame
import proofs.«130146_j26018911879758_1_alg».proof.Proof.Sage

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of the block: the layer of the loaded blocks at (p, q). -/
theorem pay_apply (x0 : FVec Ideal S5000x64 .f32) (x1 : FVec Ideal S5000x64 .f32) (x2 : FVec Ideal S64x64 .f32)
    (x3 : FVec Ideal S64x64 .f32) (x4 : FVec Ideal S1x64 .f32) (p : Fin 5000) (q : Fin 64) :
    k2_pay1 (F := Ideal) x0 x1 x2 x3 x4 (ix2 p q) = layerAt x0 x1 x2 x3 x4 p q := by
  unfold k2_pay1
  simp only [shapeCast_self]
  exact body_apply _ rfl _ rfl _ _ x0 x1 x2 x3 x4 p q

/-- The printed index maps over the grid: the row windows (0, 1 and the output 5) sit at block row t, the weight and
    bias windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem row_lt (t : Fin cfg2.N) (p : Fin 5000) : t.val * 5000 + p.val < 100000 := by
  have hN : grid2.N = 20 := N_2
  have ht : t.val < grid2.N := t.isLt
  have hp := p.isLt
  omega

/-! ## Each window's block at a point, read off its array -/

theorem blk0 (c : Dev nD) (t : Fin cfg2.N) (p : Fin 5000) (k : Fin 64) :
    iblk2 V c 0 t (ix2 p k) = V c main_v68 (ix2 (⟨t.val * 5000 + p.val, row_lt t p⟩ : Fin 100000) k) := by
  obtain ⟨e00, e01, -⟩ := idx_facts t
  show V c main_v68 (((cfg2.win 0).blk t).view.emb (ix2 p k)) = _
  refine congrArg (V c main_v68) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

theorem blk1 (c : Dev nD) (t : Fin cfg2.N) (p : Fin 5000) (k : Fin 64) :
    iblk2 V c 1 t (ix2 p k) = V c main_v28 (ix2 (⟨t.val * 5000 + p.val, row_lt t p⟩ : Fin 100000) k) := by
  obtain ⟨-, -, e10, e11, -⟩ := idx_facts t
  show V c main_v28 (((cfg2.win 1).blk t).view.emb (ix2 p k)) = _
  refine congrArg (V c main_v28) (funext fun a => Fin.ext ?_)
  match a with
  | ⟨0, _⟩ => show win2_1.index t (0 : Fin 2) * 5000 + 1 * p.val = t.val * 5000 + p.val; omega
  | ⟨1, _⟩ => show win2_1.index t (1 : Fin 2) * 64 + 1 * k.val = k.val; omega

theorem blk2 (c : Dev nD) (t : Fin cfg2.N) (k : Fin 64) (q : Fin 64) :
    iblk2 V c 2 t (ix2 k q) = V c main_arg8 (ix2 k q) := by
  obtain ⟨-, -, -, -, e20, e21, -⟩ := idx_facts t
  show V c main_arg8 (((cfg2.win 2).blk t).view.emb (ix2 k q)) = _
  refine congrArg (V c main_arg8) (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

theorem blk3 (c : Dev nD) (t : Fin cfg2.N) (k : Fin 64) (q : Fin 64) :
    iblk2 V c 3 t (ix2 k q) = V c main_arg9 (ix2 k q) := by
  obtain ⟨-, -, -, -, -, -, e30, e31, -⟩ := idx_facts t
  show V c main_arg9 (((cfg2.win 3).blk t).view.emb (ix2 k q)) = _
  refine congrArg (V c main_arg9) (funext fun a => Fin.ext ?_)
  match a with
  | ⟨0, _⟩ => show win2_3.index t (0 : Fin 2) * 64 + 1 * k.val = k.val; omega
  | ⟨1, _⟩ => show win2_3.index t (1 : Fin 2) * 64 + 1 * q.val = q.val; omega

theorem blk4 (c : Dev nD) (t : Fin cfg2.N) (z : Fin 1) (q : Fin 64) :
    iblk2 V c 4 t (ix2 z q) = V c main_v69 (ix2 z q) := by
  obtain ⟨-, -, -, -, -, -, -, -, e40, e41, -⟩ := idx_facts t
  show V c main_v69 (((cfg2.win 4).blk t).view.emb (ix2 z q)) = _
  refine congrArg (V c main_v69) (funext fun a => Fin.ext ?_)
  match a with
  | ⟨0, _⟩ => show win2_4.index t (0 : Fin 2) * 1 + 1 * z.val = z.val; omega
  | ⟨1, _⟩ => show win2_4.index t (1 : Fin 2) * 64 + 1 * q.val = q.val; omega

/-- Entry (p, q) of the output's block at point t is entry (5000 t + p, q) of the output array. -/
theorem emb5 (t : Fin cfg2.N) (p : Fin 5000) (q : Fin 64) :
    ((cfg2.win 5).blk t).view.emb (ix2 p q) = ix2 (⟨t.val * 5000 + p.val, row_lt t p⟩ : Fin 100000) q := by
  obtain ⟨-, -, -, -, -, -, -, -, -, -, e50, e51⟩ := idx_facts t
  refine funext fun a => Fin.ext ?_
  match a with
  | ⟨0, _⟩ => show win2_5.index t (0 : Fin 2) * 5000 + 1 * p.val = t.val * 5000 + p.val; omega
  | ⟨1, _⟩ => show win2_5.index t (1 : Fin 2) * 64 + 1 * q.val = q.val; omega

/-- What point t writes back is block t of the layer of the arrays the launch finds. -/
theorem flushed_eq (c : Dev nD) (t : Fin cfg2.N) :
    (dat2 V c).flushed 5 t = ((cfg2.win 5).blk t).view.read (Elt Ideal)
      (layer (M := 100000) (V c main_v68) (V c main_v28) (V c main_arg8) (V c main_arg9) (V c main_v69)) := by
  show (cfg2.win 5).cut (grid2.coords t) ((dat2 V c).after 5 t) = _
  rw [after2_5]
  unfold out2_5
  rw [View.canon_unit_zero hz]
  simp only [View.ld_unit_zero (S := S5000x64) hz, View.ld_unit_zero (S := S5000x64) hz, View.ld_unit_zero (S := S64x64) hz,
    View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = layer (M := 100000) (V c main_v68) (V c main_v28) (V c main_arg8) (V c main_arg9) (V c main_v69) (((cfg2.win 5).blk t).view.emb (ix2 p q))
  rw [emb5 t p q]
  refine (pay_apply _ _ _ _ _ p q).trans ?_
  show layerAt (iblk2 V c 0 t) (iblk2 V c 1 t) (iblk2 V c 2 t) (iblk2 V c 3 t) (iblk2 V c 4 t) p q
    = layerAt (M := 100000) (V c main_v68) (V c main_v28) (V c main_arg8) (V c main_arg9) (V c main_v69) (⟨t.val * 5000 + p.val, row_lt t p⟩ : Fin 100000) q
  unfold layerAt
  simp only [blk0 V c t, blk1 V c t, blk2 V c t, blk3 V c t, blk4 V c t]

/-- An index of the output array is in point t's block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v70).slice (win2_5.rect t)).set ↔ _
  rw [View.set_slice_whole, Rect.mem_set_unit]
  exact Iff.rfl

/-- Row r of the output lies in the block of point r / 5000. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : grid2.N = 20 := N_2
  have hlt : (i 0).val / 5000 < grid2.N := by omega
  obtain ⟨-, -, -, -, -, -, -, -, -, -, e50, e51⟩ := idx_facts (⟨(i 0).val / 5000, hlt⟩ : Fin cfg2.N)
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, hlt⟩ (1 : Fin 2) * 64 ≤ (i 1).val ∧ (i 1).val < win2_5.index ⟨(i 0).val / 5000, hlt⟩ (1 : Fin 2) * 64 + 64
    rw [e51]
    omega

/-- THE OUTPUT ARRAY after the launch: the layer of the arrays the launch finds. -/
theorem final (c : Dev nD) :
    (dat2 V c).arrAt 5 cfg2.N
      = layer (M := 100000) (V c main_v68) (V c main_v28) (V c main_arg8) (V c main_arg9) (V c main_v69) :=
  (dat2 V c).arrAt_eq_of_cover 5 _ (fun t _ => flushed_eq V c t) cover

end Cert.KernelIdeal.Reg2

end
-- ==== Proof.KVal3.lean ====
/-
  The idealized kernel's buffers at boundaries 5 and 6 of @main, named by the reference's own stages.

  The third host stretch aggregates the customers' hidden features over the customer-to-recipe edges as the reference
  does; the third launch leaves the recipes' embeddings, the layer (no cut-off) of that aggregate and of the recipes'
  hidden features.
-/
import proofs.«130146_j26018911879758_1_alg».proof.Proof.KVal2
import proofs.«130146_j26018911879758_1_alg».proof.Proof.Reg2

set_option maxRecDepth 16384
set_option quotPrecheck false

noncomputable section

namespace Cert.KernelIdeal.KVal

open Idealize.ShloMosaic Idealize.ShloMosaic.TcCoe Idealize.ShloMosaic.Tactic Idealize.SL.Sem
open Idealize.ShloMosaic.Pipeline (Dat Cfg Window)
open Cert.KernelIdeal Cert.KernelIdeal.Gen Cert.Sage

variable (m : (ℓ : Loc nD τ sig) → Buf (Elt Ideal) ℓ) (ρ : Dev nD → PrngReg) (c : Dev nD)

local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)
local notation "X15" => m ((c : Thread nD τ).loc main_arg15)
local notation "X16" => m ((c : Thread nD τ).loc main_arg16)
local notation "X17" => m ((c : Thread nD τ).loc main_arg17)
local notation "X18" => m ((c : Thread nD τ).loc main_arg18)
local notation "X19" => m ((c : Thread nD τ).loc main_arg19)
local notation "X20" => m ((c : Thread nD τ).loc main_arg20)

/-! ## After host stretch 2 -/

theorem W5_main_v68 : W5 m ρ c (Proc.devRef .tc main_v68) = Cert.ReferenceIdeal.Read.val_main_v78 (F := Ideal) X0 X1 X5 X6 X7 X18 X19 := by
  show StableHlo.after hostOps2 (W4 m ρ c) (Proc.devRef .tc main_v68) = _
  after_results_simp
  rw [W4_main_v1 m ρ c, W4_main_v3 m ρ c, W4_main_v49 m ρ c]
  rfl

theorem W5_main_v69 : W5 m ρ c (Proc.devRef .tc main_v69) = shapeCast S1x64 X10 shapeCasts_S64_S1x64 := by
  show StableHlo.after hostOps2 (W4 m ρ c) (Proc.devRef .tc main_v69) = _
  after_results_simp
  rw [W4_main_arg10 m ρ c]
  rfl

theorem W5_main_v28 : W5 m ρ c (Proc.devRef .tc main_v28) = Cert.ReferenceIdeal.Read.val_main_v33 (F := Ideal) X0 X1 X2 X3 X4 X18 :=
  (StableHlo.after_of_forall_not_mem (b := Proc.devRef .tc main_v28) _ _ (List.forall_iff_forall_mem.mp (by host_untouched hostOps2))).trans (W4_main_v28 m ρ c)

theorem W5_main_arg8 : W5 m ρ c (Proc.devRef .tc main_arg8) = X8 :=
  (StableHlo.after_of_forall_not_mem (b := Proc.devRef .tc main_arg8) _ _ (List.forall_iff_forall_mem.mp (by host_untouched hostOps2))).trans (W4_main_arg8 m ρ c)

theorem W5_main_arg9 : W5 m ρ c (Proc.devRef .tc main_arg9) = X9 :=
  (StableHlo.after_of_forall_not_mem (b := Proc.devRef .tc main_arg9) _ _ (List.forall_iff_forall_mem.mp (by host_untouched hostOps2))).trans (W4_main_arg9 m ρ c)

theorem W5_main_v5 : W5 m ρ c (Proc.devRef .tc main_v5) = Cert.ReferenceIdeal.Read.val_main_v5 (F := Ideal) X19 :=
  (StableHlo.after_of_forall_not_mem (b := Proc.devRef .tc main_v5) _ _ (List.forall_iff_forall_mem.mp (by host_untouched hostOps2))).trans (W4_main_v5 m ρ c)

theorem W5_main_v7 : W5 m ρ c (Proc.devRef .tc main_v7) = Cert.ReferenceIdeal.Read.val_main_v7 (F := Ideal) X19 :=
  (StableHlo.after_of_forall_not_mem (b := Proc.devRef .tc main_v7) _ _ (List.forall_iff_forall_mem.mp (by host_untouched hostOps2))).trans (W4_main_v7 m ρ c)

theorem W5_main_arg13 : W5 m ρ c (Proc.devRef .tc main_arg13) = X13 :=
  (StableHlo.after_of_forall_not_mem (b := Proc.devRef .tc main_arg13) _ _ (List.forall_iff_forall_mem.mp (by host_untouched hostOps2))).trans (W4_main_arg13 m ρ c)

theorem W5_main_v49 : W5 m ρ c (Proc.devRef .tc main_v49) = Cert.ReferenceIdeal.Read.val_main_v59 (F := Ideal) X0 X1 X5 X6 X7 X19 :=
  (StableHlo.after_of_forall_not_mem (b := Proc.devRef .tc main_v49) _ _ (List.forall_iff_forall_mem.mp (by host_untouched hostOps2))).trans (W4_main_v49 m ρ c)

theorem W5_main_arg11 : W5 m ρ c (Proc.devRef .tc main_arg11) = X11 :=
  (StableHlo.after_of_forall_not_mem (b := Proc.devRef .tc main_arg11) _ _ (List.forall_iff_forall_mem.mp (by host_untouched hostOps2))).trans (W4_main_arg11 m ρ c)

theorem W5_main_arg12 : W5 m ρ c (Proc.devRef .tc main_arg12) = X12 :=
  (StableHlo.after_of_forall_not_mem (b := Proc.devRef .tc main_arg12) _ _ (List.forall_iff_forall_mem.mp (by host_untouched hostOps2))).trans (W4_main_arg12 m ρ c)

theorem W5_main_arg20 : W5 m ρ c (Proc.devRef .tc main_arg20) = X20 :=
  (StableHlo.after_of_forall_not_mem (b := Proc.devRef .tc main_arg20) _ _ (List.forall_iff_forall_mem.mp (by host_untouched hostOps2))).trans (W4_main_arg20 m ρ c)

theorem W5_main_arg14 : W5 m ρ c (Proc.devRef .tc main_arg14) = X14 :=
  (StableHlo.after_of_forall_not_mem (b := Proc.devRef .tc main_arg14) _ _ (List.forall_iff_forall_mem.mp (by host_untouched hostOps2))).trans (W4_main_arg14 m ρ c)

theorem W5_main_arg15 : W5 m ρ c (Proc.devRef .tc main_arg15) = X15 :=
  (StableHlo.after_of_forall_not_mem (b := Proc.devRef .tc main_arg15) _ _ (List.forall_iff_forall_mem.mp (by host_untouched hostOps2))).trans (W4_main_arg15 m ρ c)

theorem W5_main_arg17 : W5 m ρ c (Proc.devRef .tc main_arg17) = X17 :=
  (StableHlo.after_of_forall_not_mem (b := Proc.devRef .tc main_arg17) _ _ (List.forall_iff_forall_mem.mp (by host_untouched hostOps2))).trans (W4_main_arg17 m ρ c)

theorem W5_main_arg16 : W5 m ρ c (Proc.devRef .tc main_arg16) = X16 :=
  (StableHlo.after_of_forall_not_mem (b := Proc.devRef .tc main_arg16) _ _ (List.forall_iff_forall_mem.mp (by host_untouched hostOps2))).trans (W4_main_arg16 m ρ c)

/-! ## After launch 2 -/

theorem W6_main_v70 : W6 m ρ c (Proc.devRef .tc main_v70) = Cert.ReferenceIdeal.Read.val_main_v84 (F := Ideal) X0 X1 X2 X3 X4 X5 X6 X7 X8 X9 X10 X18 X19 :=
  (W6_arr m ρ c 5).trans ((Cert.KernelIdeal.Reg2.final (V5 m ρ) c).trans (by
    show layer (M := 100000) (W5 m ρ c (Proc.devRef .tc main_v68)) (W5 m ρ c (Proc.devRef .tc main_v28)) (W5 m ρ c (Proc.devRef .tc main_arg8)) (W5 m ρ c (Proc.devRef .tc main_arg9)) (W5 m ρ c (Proc.devRef .tc main_v69)) = _
    rw [W5_main_v68 m ρ c, W5_main_v28 m ρ c, W5_main_arg8 m ρ c, W5_main_arg9 m ρ c, W5_main_v69 m ρ c]
    exact (Cert.ReferenceIdeal.RefValue.zr_eq ..).symm))

theorem W6_main_v5 : W6 m ρ c (Proc.devRef .tc main_v5) = Cert.ReferenceIdeal.Read.val_main_v5 (F := Ideal) X19 :=
  (W6_of_ne m ρ c main_v5 (by decide)).trans (W5_main_v5 m ρ c)

theorem W6_main_v7 : W6 m ρ c (Proc.devRef .tc main_v7) = Cert.ReferenceIdeal.Read.val_main_v7 (F := Ideal) X19 :=
  (W6_of_ne m ρ c main_v7 (by decide)).trans (W5_main_v7 m ρ c)

theorem W6_main_v28 : W6 m ρ c (Proc.devRef .tc main_v28) = Cert.ReferenceIdeal.Read.val_main_v33 (F := Ideal) X0 X1 X2 X3 X4 X18 :=
  ((W6_arr m ρ c 1).trans (((dat2 (V5 m ρ) c).arrAt_in 1 rfl _).trans (A_eq2 (V5 m ρ) c 1))).trans (W5_main_v28 m ρ c)

theorem W6_main_arg13 : W6 m ρ c (Proc.devRef .tc main_arg13) = X13 :=
  (W6_of_ne m ρ c main_arg13 (by decide)).trans (W5_main_arg13 m ρ c)

theorem W6_main_v49 : W6 m ρ c (Proc.devRef .tc main_v49) = Cert.ReferenceIdeal.Read.val_main_v59 (F := Ideal) X0 X1 X5 X6 X7 X19 :=
  (W6_of_ne m ρ c main_v49 (by decide)).trans (W5_main_v49 m ρ c)

theorem W6_main_arg11 : W6 m ρ c (Proc.devRef .tc main_arg11) = X11 :=
  (W6_of_ne m ρ c main_arg11 (by decide)).trans (W5_main_arg11 m ρ c)

theorem W6_main_arg12 : W6 m ρ c (Proc.devRef .tc main_arg12) = X12 :=
  (W6_of_ne m ρ c main_arg12 (by decide)).trans (W5_main_arg12 m ρ c)

theorem W6_main_arg20 : W6 m ρ c (Proc.devRef .tc main_arg20) = X20 :=
  (W6_of_ne m ρ c main_arg20 (by decide)).trans (W5_main_arg20 m ρ c)

theorem W6_main_arg14 : W6 m ρ c (Proc.devRef .tc main_arg14) = X14 :=
  (W6_of_ne m ρ c main_arg14 (by decide)).trans (W5_main_arg14 m ρ c)

theorem W6_main_arg15 : W6 m ρ c (Proc.devRef .tc main_arg15) = X15 :=
  (W6_of_ne m ρ c main_arg15 (by decide)).trans (W5_main_arg15 m ρ c)

theorem W6_main_arg17 : W6 m ρ c (Proc.devRef .tc main_arg17) = X17 :=
  (W6_of_ne m ρ c main_arg17 (by decide)).trans (W5_main_arg17 m ρ c)

theorem W6_main_arg16 : W6 m ρ c (Proc.devRef .tc main_arg16) = X16 :=
  (W6_of_ne m ρ c main_arg16 (by decide)).trans (W5_main_arg16 m ρ c)

end Cert.KernelIdeal.KVal

end
-- ==== Proof.Reg3.lean ====
/-
  Kernel launch 3 of the idealized kernel: one dense layer over all 100000 rows, 5000 rows per grid point.

  At grid point t the body reads rows [5000 t, 5000 t + 5000) of the aggregated array and of the destination
  features, the two whole weight matrices and the bias row, and writes rows [5000 t, 5000 t + 5000) of the output:
  entry (p, q) of the block is the layer's value at row 5000 t + p, feature q, which depends on that one row of each
  input only. The twenty blocks tile the output, so after the launch the output array is the layer
  of the arrays the launch finds, as one whole-array function.
-/
import proofs.«130146_j26018911879758_1_alg».proof.Proof.Gen.KernelIdeal.Frame
import proofs.«130146_j26018911879758_1_alg».proof.Proof.Sage

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of the block: the layer of the loaded blocks at (p, q). -/
theorem pay_apply (x0 : FVec Ideal S5000x64 .f32) (x1 : FVec Ideal S5000x64 .f32) (x2 : FVec Ideal S64x64 .f32)
    (x3 : FVec Ideal S64x64 .f32) (x4 : FVec Ideal S1x64 .f32) (p : Fin 5000) (q : Fin 64) :
    k3_pay1 (F := Ideal) x0 x1 x2 x3 x4 (ix2 p q) = layerAt x0 x1 x2 x3 x4 p q := by
  unfold k3_pay1
  simp only [shapeCast_self]
  exact body_apply _ rfl _ rfl _ _ x0 x1 x2 x3 x4 p q

/-- The printed index maps over the grid: the row windows (0, 1 and the output 5) sit at block row t, the weight and
    bias windows at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem row_lt (t : Fin cfg3.N) (p : Fin 5000) : t.val * 5000 + p.val < 100000 := by
  have hN : grid3.N = 20 := N_3
  have ht : t.val < grid3.N := t.isLt
  have hp := p.isLt
  omega

/-! ## Each window's block at a point, read off its array -/

theorem blk0 (c : Dev nD) (t : Fin cfg3.N) (p : Fin 5000) (k : Fin 64) :
    iblk3 V c 0 t (ix2 p k) = V c main_v89 (ix2 (⟨t.val * 5000 + p.val, row_lt t p⟩ : Fin 100000) k) := by
  obtain ⟨e00, e01, -⟩ := idx_facts t
  show V c main_v89 (((cfg3.win 0).blk t).view.emb (ix2 p k)) = _
  refine congrArg (V c main_v89) (funext fun a => Fin.ext ?_)
  match a with
  | ⟨0, _⟩ => show win3_0.index t (0 : Fin 2) * 5000 + 1 * p.val = t.val * 5000 + p.val; omega
  | ⟨1, _⟩ => show win3_0.index t (1 : Fin 2) * 64 + 1 * k.val = k.val; omega

theorem blk1 (c : Dev nD) (t : Fin cfg3.N) (p : Fin 5000) (k : Fin 64) :
    iblk3 V c 1 t (ix2 p k) = V c main_v49 (ix2 (⟨t.val * 5000 + p.val, row_lt t p⟩ : Fin 100000) k) := by
  obtain ⟨-, -, e10, e11, -⟩ := idx_facts t
  show V c main_v49 (((cfg3.win 1).blk t).view.emb (ix2 p k)) = _
  refine congrArg (V c main_v49) (funext fun a => Fin.ext ?_)
  match a with
  | ⟨0, _⟩ => show win3_1.index t (0 : Fin 2) * 5000 + 1 * p.val = t.val * 5000 + p.val; omega
  | ⟨1, _⟩ => show win3_1.index t (1 : Fin 2) * 64 + 1 * k.val = k.val; omega

theorem blk2 (c : Dev nD) (t : Fin cfg3.N) (k : Fin 64) (q : Fin 64) :
    iblk3 V c 2 t (ix2 k q) = V c main_arg11 (ix2 k q) := by
  obtain ⟨-, -, -, -, e20, e21, -⟩ := idx_facts t
  show V c main_arg11 (((cfg3.win 2).blk t).view.emb (ix2 k q)) = _
  refine congrArg (V c main_arg11) (funext fun a => Fin.ext ?_)
  match a with
  | ⟨0, _⟩ => show win3_2.index t (0 : Fin 2) * 64 + 1 * k.val = k.val; omega
  | ⟨1, _⟩ => show win3_2.index t (1 : Fin 2) * 64 + 1 * q.val = q.val; omega

theorem blk3 (c : Dev nD) (t : Fin cfg3.N) (k : Fin 64) (q : Fin 64) :
    iblk3 V c 3 t (ix2 k q) = V c main_arg12 (ix2 k q) := by
  obtain ⟨-, -, -, -, -, -, e30, e31, -⟩ := idx_facts t
  show V c main_arg12 (((cfg3.win 3).blk t).view.emb (ix2 k q)) = _
  refine congrArg (V c main_arg12) (funext fun a => Fin.ext ?_)
  match a with
  | ⟨0, _⟩ => show win3_3.index t (0 : Fin 2) * 64 + 1 * k.val = k.val; omega
  | ⟨1, _⟩ => show win3_3.index t (1 : Fin 2) * 64 + 1 * q.val = q.val; omega

theorem blk4 (c : Dev nD) (t : Fin cfg3.N) (z : Fin 1) (q : Fin 64) :
    iblk3 V c 4 t (ix2 z q) = V c main_v90 (ix2 z q) := by
  obtain ⟨-, -, -, -, -, -, -, -, e40, e41, -⟩ := idx_facts t
  show V c main_v90 (((cfg3.win 4).blk t).view.emb (ix2 z q)) = _
  refine congrArg (V c main_v90) (funext fun a => Fin.ext ?_)
  match a with
  | ⟨0, _⟩ => show win3_4.index t (0 : Fin 2) * 1 + 1 * z.val = z.val; omega
  | ⟨1, _⟩ => show win3_4.index t (1 : Fin 2) * 64 + 1 * q.val = q.val; omega

/-- Entry (p, q) of the output's block at point t is entry (5000 t + p, q) of the output array. -/
theorem emb5 (t : Fin cfg3.N) (p : Fin 5000) (q : Fin 64) :
    ((cfg3.win 5).blk t).view.emb (ix2 p q) = ix2 (⟨t.val * 5000 + p.val, row_lt t p⟩ : Fin 100000) q := by
  obtain ⟨-, -, -, -, -, -, -, -, -, -, e50, e51⟩ := idx_facts t
  refine funext fun a => Fin.ext ?_
  match a with
  | ⟨0, _⟩ => show win3_5.index t (0 : Fin 2) * 5000 + 1 * p.val = t.val * 5000 + p.val; omega
  | ⟨1, _⟩ => show win3_5.index t (1 : Fin 2) * 64 + 1 * q.val = q.val; omega

/-- What point t writes back is block t of the layer of the arrays the launch finds. -/
theorem flushed_eq (c : Dev nD) (t : Fin cfg3.N) :
    (dat3 V c).flushed 5 t = ((cfg3.win 5).blk t).view.read (Elt Ideal)
      (layer (M := 100000) (V c main_v89) (V c main_v49) (V c main_arg11) (V c main_arg12) (V c main_v90)) := by
  show (cfg3.win 5).cut (grid3.coords t) ((dat3 V c).after 5 t) = _
  rw [after3_5]
  unfold out3_5
  rw [View.canon_unit_zero hz]
  simp only [View.ld_unit_zero (S := S5000x64) hz, View.ld_unit_zero (S := S5000x64) hz, View.ld_unit_zero (S := S64x64) hz,
    View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = layer (M := 100000) (V c main_v89) (V c main_v49) (V c main_arg11) (V c main_arg12) (V c main_v90) (((cfg3.win 5).blk t).view.emb (ix2 p q))
  rw [emb5 t p q]
  refine (pay_apply _ _ _ _ _ p q).trans ?_
  show layerAt (iblk3 V c 0 t) (iblk3 V c 1 t) (iblk3 V c 2 t) (iblk3 V c 3 t) (iblk3 V c 4 t) p q
    = layerAt (M := 100000) (V c main_v89) (V c main_v49) (V c main_arg11) (V c main_arg12) (V c main_v90) (⟨t.val * 5000 + p.val, row_lt t p⟩ : Fin 100000) q
  unfold layerAt
  simp only [blk0 V c t, blk1 V c t, blk2 V c t, blk3 V c t, blk4 V c t]

/-- An index of the output array is in point t's block iff each coordinate is in the block's range on its axis. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v91).slice (win3_5.rect t)).set ↔ _
  rw [View.set_slice_whole, Rect.mem_set_unit]
  exact Iff.rfl

/-- Row r of the output lies in the block of point r / 5000. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : grid3.N = 20 := N_3
  have hlt : (i 0).val / 5000 < grid3.N := by omega
  obtain ⟨-, -, -, -, -, -, -, -, -, -, e50, e51⟩ := idx_facts (⟨(i 0).val / 5000, hlt⟩ : Fin cfg3.N)
  refine ⟨⟨(i 0).val / 5000, hlt⟩, flush3_5 _, ?_⟩
  rw [mem_blk]
  intro a
  match a with
  | ⟨0, _⟩ =>
    show win3_5.index ⟨(i 0).val / 5000, hlt⟩ (0 : Fin 2) * 5000 ≤ (i 0).val ∧ (i 0).val < win3_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win3_5.index ⟨(i 0).val / 5000, hlt⟩ (1 : Fin 2) * 64 ≤ (i 1).val ∧ (i 1).val < win3_5.index ⟨(i 0).val / 5000, hlt⟩ (1 : Fin 2) * 64 + 64
    rw [e51]
    omega

/-- THE OUTPUT ARRAY after the launch: the layer of the arrays the launch finds. -/
theorem final (c : Dev nD) :
    (dat3 V c).arrAt 5 cfg3.N
      = layer (M := 100000) (V c main_v89) (V c main_v49) (V c main_arg11) (V c main_arg12) (V c main_v90) :=
  (dat3 V c).arrAt_eq_of_cover 5 _ (fun t _ => flushed_eq V c t) cover

end Cert.KernelIdeal.Reg3

end
-- ==== Proof.KVal4.lean ====
/-
  The idealized kernel's buffers at boundaries 7 and 8 of @main, named by the reference's own stages.

  The fourth host stretch aggregates the recipes' hidden features over the recipe-to-customer edges as the reference
  does; the fourth launch leaves the customers' embeddings, the layer (no cut-off) of that aggregate and of the
  customers' hidden features.
-/
import proofs.«130146_j26018911879758_1_alg».proof.Proof.KVal3
import proofs.«130146_j26018911879758_1_alg».proof.Proof.Reg3

set_option maxRecDepth 16384
set_option quotPrecheck false

noncomputable section

namespace Cert.KernelIdeal.KVal

open Idealize.ShloMosaic Idealize.ShloMosaic.TcCoe Idealize.ShloMosaic.Tactic Idealize.SL.Sem
open Idealize.ShloMosaic.Pipeline (Dat Cfg Window)
open Cert.KernelIdeal Cert.KernelIdeal.Gen Cert.Sage

variable (m : (ℓ : Loc nD τ sig) → Buf (Elt Ideal) ℓ) (ρ : Dev nD → PrngReg) (c : Dev nD)

local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)
local notation "X15" => m ((c : Thread nD τ).loc main_arg15)
local notation "X16" => m ((c : Thread nD τ).loc main_arg16)
local notation "X17" => m ((c : Thread nD τ).loc main_arg17)
local notation "X18" => m ((c : Thread nD τ).loc main_arg18)
local notation "X19" => m ((c : Thread nD τ).loc main_arg19)
local notation "X20" => m ((c : Thread nD τ).loc main_arg20)

/-! ## After host stretch 3 -/

theorem W7_main_v89 : W7 m ρ c (Proc.devRef .tc main_v89) = Cert.ReferenceIdeal.Read.val_main_v103 (F := Ideal) X0 X1 X2 X3 X4 X18 X19 := by
  show StableHlo.after hostOps3 (W6 m ρ c) (Proc.devRef .tc main_v89) = _
  after_results_simp
  rw [W6_main_v5 m ρ c, W6_main_v7 m ρ c, W6_main_v28 m ρ c]
  rfl

theorem W7_main_v90 : W7 m ρ c (Proc.devRef .tc main_v90) = shapeCast S1x64 X13 shapeCasts_S64_S1x64 := by
  show StableHlo.after hostOps3 (W6 m ρ c) (Proc.devRef .tc main_v90) = _
  after_results_simp
  rw [W6_main_arg13 m ρ c]
  rfl

theorem W7_main_v49 : W7 m ρ c (Proc.devRef .tc main_v49) = Cert.ReferenceIdeal.Read.val_main_v59 (F := Ideal) X0 X1 X5 X6 X7 X19 :=
  (StableHlo.after_of_forall_not_mem (b := Proc.devRef .tc main_v49) _ _ (List.forall_iff_forall_mem.mp (by host_untouched hostOps3))).trans (W6_main_v49 m ρ c)

theorem W7_main_arg11 : W7 m ρ c (Proc.devRef .tc main_arg11) = X11 :=
  (StableHlo.after_of_forall_not_mem (b := Proc.devRef .tc main_arg11) _ _ (List.forall_iff_forall_mem.mp (by host_untouched hostOps3))).trans (W6_main_arg11 m ρ c)

theorem W7_main_arg12 : W7 m ρ c (Proc.devRef .tc main_arg12) = X12 :=
  (StableHlo.after_of_forall_not_mem (b := Proc.devRef .tc main_arg12) _ _ (List.forall_iff_forall_mem.mp (by host_untouched hostOps3))).trans (W6_main_arg12 m ρ c)

theorem W7_main_arg20 : W7 m ρ c (Proc.devRef .tc main_arg20) = X20 :=
  (StableHlo.after_of_forall_not_mem (b := Proc.devRef .tc main_arg20) _ _ (List.forall_iff_forall_mem.mp (by host_untouched hostOps3))).trans (W6_main_arg20 m ρ c)

theorem W7_main_v70 : W7 m ρ c (Proc.devRef .tc main_v70) = Cert.ReferenceIdeal.Read.val_main_v84 (F := Ideal) X0 X1 X2 X3 X4 X5 X6 X7 X8 X9 X10 X18 X19 :=
  (StableHlo.after_of_forall_not_mem (b := Proc.devRef .tc main_v70) _ _ (List.forall_iff_forall_mem.mp (by host_untouched hostOps3))).trans (W6_main_v70 m ρ c)

theorem W7_main_arg14 : W7 m ρ c (Proc.devRef .tc main_arg14) = X14 :=
  (StableHlo.after_of_forall_not_mem (b := Proc.devRef .tc main_arg14) _ _ (List.forall_iff_forall_mem.mp (by host_untouched hostOps3))).trans (W6_main_arg14 m ρ c)

theorem W7_main_arg15 : W7 m ρ c (Proc.devRef .tc main_arg15) = X15 :=
  (StableHlo.after_of_forall_not_mem (b := Proc.devRef .tc main_arg15) _ _ (List.forall_iff_forall_mem.mp (by host_untouched hostOps3))).trans (W6_main_arg15 m ρ c)

theorem W7_main_arg17 : W7 m ρ c (Proc.devRef .tc main_arg17) = X17 :=
  (StableHlo.after_of_forall_not_mem (b := Proc.devRef .tc main_arg17) _ _ (List.forall_iff_forall_mem.mp (by host_untouched hostOps3))).trans (W6_main_arg17 m ρ c)

theorem W7_main_arg16 : W7 m ρ c (Proc.devRef .tc main_arg16) = X16 :=
  (StableHlo.after_of_forall_not_mem (b := Proc.devRef .tc main_arg16) _ _ (List.forall_iff_forall_mem.mp (by host_untouched hostOps3))).trans (W6_main_arg16 m ρ c)

/-! ## After launch 3 -/

theorem W8_main_v91 : W8 m ρ c (Proc.devRef .tc main_v91) = Cert.ReferenceIdeal.Read.val_main_v109 (F := Ideal) X0 X1 X2 X3 X4 X5 X6 X7 X11 X12 X13 X18 X19 :=
  (W8_arr m ρ c 5).trans ((Cert.KernelIdeal.Reg3.final (V7 m ρ) c).trans (by
    show layer (M := 100000) (W7 m ρ c (Proc.devRef .tc main_v89)) (W7 m ρ c (Proc.devRef .tc main_v49)) (W7 m ρ c (Proc.devRef .tc main_arg11)) (W7 m ρ c (Proc.devRef .tc main_arg12)) (W7 m ρ c (Proc.devRef .tc main_v90)) = _
    rw [W7_main_v89 m ρ c, W7_main_v49 m ρ c, W7_main_arg11 m ρ c, W7_main_arg12 m ρ c, W7_main_v90 m ρ c]
    exact (Cert.ReferenceIdeal.RefValue.zc_eq ..).symm))

theorem W8_main_arg20 : W8 m ρ c (Proc.devRef .tc main_arg20) = X20 :=
  (W8_of_ne m ρ c main_arg20 (by decide)).trans (W7_main_arg20 m ρ c)

theorem W8_main_v70 : W8 m ρ c (Proc.devRef .tc main_v70) = Cert.ReferenceIdeal.Read.val_main_v84 (F := Ideal) X0 X1 X2 X3 X4 X5 X6 X7 X8 X9 X10 X18 X19 :=
  (W8_of_ne m ρ c main_v70 (by decide)).trans (W7_main_v70 m ρ c)

theorem W8_main_arg14 : W8 m ρ c (Proc.devRef .tc main_arg14) = X14 :=
  (W8_of_ne m ρ c main_arg14 (by decide)).trans (W7_main_arg14 m ρ c)

theorem W8_main_arg15 : W8 m ρ c (Proc.devRef .tc main_arg15) = X15 :=
  (W8_of_ne m ρ c main_arg15 (by decide)).trans (W7_main_arg15 m ρ c)

theorem W8_main_arg17 : W8 m ρ c (Proc.devRef .tc main_arg17) = X17 :=
  (W8_of_ne m ρ c main_arg17 (by decide)).trans (W7_main_arg17 m ρ c)

theorem W8_main_arg16 : W8 m ρ c (Proc.devRef .tc main_arg16) = X16 :=
  (W8_of_ne m ρ c main_arg16 (by decide)).trans (W7_main_arg16 m ρ c)

end Cert.KernelIdeal.KVal

end
-- ==== Proof.Reg4.lean ====
/-
  Kernel launch 4 of the idealized kernel: the decoder over all 500000 supervision edges, 10000 rows per grid point.

  At grid point t the body reads rows [10000 t, 10000 t + 10000) of the two gathered embedding arrays, the two
  halves of the first weight matrix, the hidden bias row, the output weights and the output bias, and writes rows
  [10000 t, 10000 t + 10000) of the one-column output: entry (p, 0) of the block is the decoder's value at row
  10000 t + p, which depends on that one row of each gathered array only. The fifty blocks tile the output, so after
  the launch the output array is the decoder of the arrays the launch finds, as one whole-array function.
-/
import proofs.«130146_j26018911879758_1_alg».proof.Proof.Gen.KernelIdeal.Frame
import proofs.«130146_j26018911879758_1_alg».proof.Proof.Sage

set_option maxRecDepth 16384

noncomputable section

namespace Cert.KernelIdeal.Reg4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, z) of the block: the decoder of the loaded blocks at (p, z). -/
theorem pay_apply (x0 x1 : FVec Ideal S10000x64 .f32) (x2 x3 : FVec Ideal S64x64 .f32) (x4 : FVec Ideal S1x64 .f32)
    (x5 : FVec Ideal S64x1 .f32) (x6 : FVec Ideal S1x1 .f32) (p : Fin 10000) (z : Fin 1) :
    k4_pay1 (F := Ideal) x0 x1 x2 x3 x4 x5 x6 (ix2 p z) = decAt x0 x1 x2 x3 x4 x5 x6 p z := by
  unfold k4_pay1
  simp only [shapeCast_self]
  exact dec_body_apply _ _ rfl rfl _ rfl _ _ _ x0 x1 x2 x3 x4 x5 x6 p z

/-- The printed index maps over the grid: the row windows (0, 1 and the output 7) sit at block row t, every other
    window at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

theorem row_lt (t : Fin cfg4.N) (p : Fin 10000) : t.val * 10000 + p.val < 500000 := by
  have hN : grid4.N = 50 := N_4
  have ht : t.val < grid4.N := t.isLt
  have hp := p.isLt
  omega

/-! ## Each window's block at a point, read off its array -/

theorem blk0 (c : Dev nD) (t : Fin cfg4.N) (p : Fin 10000) (k : Fin 64) :
    iblk4 V c 0 t (ix2 p k) = V c main_v102 (ix2 (⟨t.val * 10000 + p.val, row_lt t p⟩ : Fin 500000) k) := by
  obtain ⟨e00, e01, -⟩ := idx_facts t
  show V c main_v102 (((cfg4.win 0).blk t).view.emb (ix2 p k)) = _
  refine congrArg (V c main_v102) (funext fun a => Fin.ext ?_)
  match a with
  | ⟨0, _⟩ => show win4_0.index t (0 : Fin 2) * 10000 + 1 * p.val = t.val * 10000 + p.val; omega
  | ⟨1, _⟩ => show win4_0.index t (1 : Fin 2) * 64 + 1 * k.val = k.val; omega

theorem blk1 (c : Dev nD) (t : Fin cfg4.N) (p : Fin 10000) (k : Fin 64) :
    iblk4 V c 1 t (ix2 p k) = V c main_v109 (ix2 (⟨t.val * 10000 + p.val, row_lt t p⟩ : Fin 500000) k) := by
  obtain ⟨-, -, e10, e11, -⟩ := idx_facts t
  show V c main_v109 (((cfg4.win 1).blk t).view.emb (ix2 p k)) = _
  refine congrArg (V c main_v109) (funext fun a => Fin.ext ?_)
  match a with
  | ⟨0, _⟩ => show win4_1.index t (0 : Fin 2) * 10000 + 1 * p.val = t.val * 10000 + p.val; omega
  | ⟨1, _⟩ => show win4_1.index t (1 : Fin 2) * 64 + 1 * k.val = k.val; omega

theorem blk2 (c : Dev nD) (t : Fin cfg4.N) (k : Fin 64) (q : Fin 64) :
    iblk4 V c 2 t (ix2 k q) = V c main_v110 (ix2 k q) := by
  obtain ⟨-, -, -, -, e20, e21, -⟩ := idx_facts t
  show V c main_v110 (((cfg4.win 2).blk t).view.emb (ix2 k q)) = _
  refine congrArg (V c main_v110) (funext fun a => Fin.ext ?_)
  match a with
  | ⟨0, _⟩ => show win4_2.index t (0 : Fin 2) * 64 + 1 * k.val = k.val; omega
  | ⟨1, _⟩ => show win4_2.index t (1 : Fin 2) * 64 + 1 * q.val = q.val; omega

theorem blk3 (c : Dev nD) (t : Fin cfg4.N) (k : Fin 64) (q : Fin 64) :
    iblk4 V c 3 t (ix2 k q) = V c main_v111 (ix2 k q) := by
  obtain ⟨-, -, -, -, -, -, e30, e31, -⟩ := idx_facts t
  show V c main_v111 (((cfg4.win 3).blk t).view.emb (ix2 k q)) = _
  refine congrArg (V c main_v111) (funext fun a => Fin.ext ?_)
  match a with
  | ⟨0, _⟩ => show win4_3.index t (0 : Fin 2) * 64 + 1 * k.val = k.val; omega
  | ⟨1, _⟩ => show win4_3.index t (1 : Fin 2) * 64 + 1 * q.val = q.val; omega

theorem blk4 (c : Dev nD) (t : Fin cfg4.N) (z : Fin 1) (q : Fin 64) :
    iblk4 V c 4 t (ix2 z q) = V c main_v112 (ix2 z q) := by
  obtain ⟨-, -, -, -, -, -, -, -, e40, e41, -⟩ := idx_facts t
  show V c main_v112 (((cfg4.win 4).blk t).view.emb (ix2 z q)) = _
  refine congrArg (V c main_v112) (funext fun a => Fin.ext ?_)
  match a with
  | ⟨0, _⟩ => show win4_4.index t (0 : Fin 2) * 1 + 1 * z.val = z.val; omega
  | ⟨1, _⟩ => show win4_4.index t (1 : Fin 2) * 64 + 1 * q.val = q.val; omega

theorem blk5 (c : Dev nD) (t : Fin cfg4.N) (k : Fin 64) (z : Fin 1) :
    iblk4 V c 5 t (ix2 k z) = V c main_arg16 (ix2 k z) := by
  obtain ⟨-, -, -, -, -, -, -, -, -, -, e50, e51, -⟩ := idx_facts t
  show V c main_arg16 (((cfg4.win 5).blk t).view.emb (ix2 k z)) = _
  refine congrArg (V c main_arg16) (funext fun a => Fin.ext ?_)
  match a with
  | ⟨0, _⟩ => show win4_5.index t (0 : Fin 2) * 64 + 1 * k.val = k.val; omega
  | ⟨1, _⟩ => show win4_5.index t (1 : Fin 2) * 1 + 1 * z.val = z.val; omega

theorem blk6 (c : Dev nD) (t : Fin cfg4.N) (y : Fin 1) (z : Fin 1) :
    iblk4 V c 6 t (ix2 y z) = V c main_v113 (ix2 y z) := by
  obtain ⟨-, -, -, -, -, -, -, -, -, -, -, -, e60, e61, -⟩ := idx_facts t
  show V c main_v113 (((cfg4.win 6).blk t).view.emb (ix2 y z)) = _
  refine congrArg (V c main_v113) (funext fun a => Fin.ext ?_)
  match a with
  | ⟨0, _⟩ => show win4_6.index t (0 : Fin 2) * 1 + 1 * y.val = y.val; omega
  | ⟨1, _⟩ => show win4_6.index t (1 : Fin 2) * 1 + 1 * z.val = z.val; omega

/-- Entry (p, z) of the output's block at point t is entry (10000 t + p, z) of the output array. -/
theorem emb7 (t : Fin cfg4.N) (p : Fin 10000) (z : Fin 1) :
    ((cfg4.win 7).blk t).view.emb (ix2 p z) = ix2 (⟨t.val * 10000 + p.val, row_lt t p⟩ : Fin 500000) z := by
  obtain ⟨-, -, -, -, -, -, -, -, -, -, -, -, -, -, e70, e71⟩ := idx_facts t
  refine funext fun a => Fin.ext ?_
  match a with
  | ⟨0, _⟩ => show win4_7.index t (0 : Fin 2) * 10000 + 1 * p.val = t.val * 10000 + p.val; omega
  | ⟨1, _⟩ => show win4_7.index t (1 : Fin 2) * 1 + 1 * z.val = z.val; omega

/-- What point t writes back is block t of the decoder of the arrays the launch finds. -/
theorem flushed_eq (c : Dev nD) (t : Fin cfg4.N) :
    (dat4 V c).flushed 7 t = ((cfg4.win 7).blk t).view.read (Elt Ideal)
      (dec (M := 500000) (V c main_v102) (V c main_v109) (V c main_v110) (V c main_v111) (V c main_v112) (V c main_arg16) (V c main_v113)) := by
  show (cfg4.win 7).cut (grid4.coords t) ((dat4 V c).after 7 t) = _
  rw [after4_7]
  unfold out4_7
  rw [View.canon_unit_zero hz]
  simp only [View.ld_unit_zero (S := S10000x64) hz, View.ld_unit_zero (S := S64x64) hz, View.ld_unit_zero (S := S1x64) hz,
    View.ld_unit_zero (S := S64x1) hz, View.ld_unit_zero (S := S1x1) hz]
  funext j
  obtain ⟨p, z, rfl⟩ : ∃ (p : Fin 10000) (z : Fin 1), j = ix2 p z := ⟨j 0, j 1, eq_ix2 j⟩
  show k4_pay1 (F := Ideal) (iblk4 V c 0 t) (iblk4 V c 1 t) (iblk4 V c 2 t) (iblk4 V c 3 t) (iblk4 V c 4 t) (iblk4 V c 5 t) (iblk4 V c 6 t) (ix2 p z)
    = dec (M := 500000) (V c main_v102) (V c main_v109) (V c main_v110) (V c main_v111) (V c main_v112) (V c main_arg16) (V c main_v113) (((cfg4.win 7).blk t).view.emb (ix2 p z))
  rw [emb7 t p z]
  refine (pay_apply _ _ _ _ _ _ _ p z).trans ?_
  show decAt (iblk4 V c 0 t) (iblk4 V c 1 t) (iblk4 V c 2 t) (iblk4 V c 3 t) (iblk4 V c 4 t) (iblk4 V c 5 t) (iblk4 V c 6 t) p z
    = decAt (M := 500000) (V c main_v102) (V c main_v109) (V c main_v110) (V c main_v111) (V c main_v112) (V c main_arg16) (V c main_v113) (⟨t.val * 10000 + p.val, row_lt t p⟩ : Fin 500000) z
  unfold decAt layerAt
  simp only [blk0 V c t, blk1 V c t, blk2 V c t, blk3 V c t, blk4 V c t, blk5 V c t, blk6 V c t]

/-- An index of the output array is in point t's block iff each coordinate is in the block's range on its axis. -/
theorem mem_blk (t : Fin cfg4.N) (i : S500000x1.Idx) :
    i ∈ ((cfg4.win 7).blk t).view.set ↔ ∀ a : Fin 2, win4_7.index t a * S10000x1.size a ≤ (i a).val ∧ (i a).val < win4_7.index t a * S10000x1.size a + S10000x1.size a := by
  show i ∈ ((View.whole main_v114).slice (win4_7.rect t)).set ↔ _
  rw [View.set_slice_whole, Rect.mem_set_unit]
  exact Iff.rfl

/-- Row r of the output lies in the block of point r / 10000. -/
theorem cover (i : S500000x1.Idx) :
    ∃ t : Fin cfg4.N, (cfg4.win 7).flush t = true ∧ i ∈ ((cfg4.win 7).blk t).view.set := by
  have hi0 : (i 0).val < 500000 := (i 0).isLt
  have hi1 : (i 1).val < 1 := (i 1).isLt
  have hN : grid4.N = 50 := N_4
  have hlt : (i 0).val / 10000 < grid4.N := by omega
  obtain ⟨-, -, -, -, -, -, -, -, -, -, -, -, -, -, e70, e71⟩ := idx_facts (⟨(i 0).val / 10000, hlt⟩ : Fin cfg4.N)
  refine ⟨⟨(i 0).val / 10000, hlt⟩, flush4_7 _, ?_⟩
  rw [mem_blk]
  intro a
  match a with
  | ⟨0, _⟩ =>
    show win4_7.index ⟨(i 0).val / 10000, hlt⟩ (0 : Fin 2) * 10000 ≤ (i 0).val ∧ (i 0).val < win4_7.index ⟨(i 0).val / 10000, hlt⟩ (0 : Fin 2) * 10000 + 10000
    rw [e70]
    show (i 0).val / 10000 * 10000 ≤ (i 0).val ∧ (i 0).val < (i 0).val / 10000 * 10000 + 10000
    omega
  | ⟨1, _⟩ =>
    show win4_7.index ⟨(i 0).val / 10000, hlt⟩ (1 : Fin 2) * 1 ≤ (i 1).val ∧ (i 1).val < win4_7.index ⟨(i 0).val / 10000, hlt⟩ (1 : Fin 2) * 1 + 1
    rw [e71]
    omega

/-- THE OUTPUT ARRAY after the launch: the decoder of the arrays the launch finds. -/
theorem final (c : Dev nD) :
    (dat4 V c).arrAt 7 cfg4.N
      = dec (M := 500000) (V c main_v102) (V c main_v109) (V c main_v110) (V c main_v111) (V c main_v112) (V c main_arg16) (V c main_v113) :=
  (dat4 V c).arrAt_eq_of_cover 7 _ (fun t _ => flushed_eq V c t) cover

end Cert.KernelIdeal.Reg4

end
-- ==== Proof.RefDecoder.lean ====
/-
  The idealized reference's decoder, read as one function of the two gathered embedding arrays.

  Hidden feature j of supervision edge p is the contraction of the joined row [zc(p) | zr(p)] (128 positions) with
  column j of the 128-row weight matrix, plus the hidden bias, cut off below at zero. Position k < 64 of the joined row
  is zc(p, k) and meets row k of the matrix, which is row k of the matrix's top half; position 64 + k is zr(p, k) and
  meets row 64 + k, which is row k of the bottom half. So the contraction is the top half's with zc plus the bottom
  half's with zr: the form the kernel computes. The output is the hidden features' contraction with the output
  weights plus the output bias, laid out as a vector.
-/
import proofs.«130146_j26018911879758_1_alg».proof.Proof.RefLayers

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Sage

variable (x0 : (⟨S100000x128, .f32⟩ : BufTy).Contents (Elt Ideal)) (x1 : (⟨S100000x64, .f32⟩ : BufTy).Contents (Elt Ideal)) (x2 : (⟨S128x64, .f32⟩ : BufTy).Contents (Elt Ideal))
  (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S128x64, .f32⟩ : BufTy).Contents (Elt Ideal))
  (x7 : (⟨S64, .f32⟩ : BufTy).Contents (Elt Ideal)) (x8 x9 : (⟨S64x64, .f32⟩ : BufTy).Contents (Elt Ideal)) (x10 : (⟨S64, .f32⟩ : BufTy).Contents (Elt Ideal)) (x11 x12 : (⟨S64x64, .f32⟩ : BufTy).Contents (Elt Ideal))
  (x13 : (⟨S64, .f32⟩ : BufTy).Contents (Elt Ideal)) (x14 : (⟨S128x64, .f32⟩ : BufTy).Contents (Elt Ideal)) (x15 : (⟨S64, .f32⟩ : BufTy).Contents (Elt Ideal)) (x16 : (⟨S64x1, .f32⟩ : BufTy).Contents (Elt Ideal))
  (x17 : (⟨S1, .f32⟩ : BufTy).Contents (Elt Ideal)) (x18 x19 : (⟨S2x2000000, .i32⟩ : BufTy).Contents (Elt Ideal)) (x20 : (⟨S2x500000, .i32⟩ : BufTy).Contents (Elt Ideal))

/-- The reference's result before its final re-layout: the decoder of the two gathered embedding arrays, the two
    halves of the first weight matrix, and the biases viewed as rows. -/
theorem dec_eq (hs0 : S128x64.Slices ![0, 0] S64x64) (hs1 : S128x64.Slices ![64, 0] S64x64)
    (h15 : S64.ShapeCasts S1x64) (h17 : S1.ShapeCasts S1x1) :
    val_main_v137 (F := Ideal) x0 x1 x2 x3 x4 x5 x6 x7 x8 x9 x10 x11 x12 x13 x14 x15 x16 x17 x18 x19 x20
      = dec (M := 500000) (val_main_v120 (F := Ideal) x0 x1 x2 x3 x4 x5 x6 x7 x11 x12 x13 x18 x19 x20) (val_main_v127 (F := Ideal) x0 x1 x2 x3 x4 x5 x6 x7 x8 x9 x10 x18 x19 x20)
      (extractStridedSlice S64x64 ![0, 0] x14 hs0) (extractStridedSlice S64x64 ![64, 0] x14 hs1)
      (shapeCast S1x64 x15 h15) x16 (shapeCast S1x1 x17 h17) := by
  funext i
  obtain ⟨p, z, rfl⟩ : ∃ (p : Fin 500000) (z : Fin 1), i = ix2 p z := ⟨i 0, i 1, eq_ix2 i⟩
  rw [val_main_v137_apply, val_main_v134_apply, val_main_v136_apply, val_main_v135_apply]
  show _ = decAt (M := 500000) (val_main_v120 (F := Ideal) x0 x1 x2 x3 x4 x5 x6 x7 x11 x12 x13 x18 x19 x20) (val_main_v127 (F := Ideal) x0 x1 x2 x3 x4 x5 x6 x7 x8 x9 x10 x18 x19 x20)
      (extractStridedSlice S64x64 ![0, 0] x14 hs0) (extractStridedSlice S64x64 ![64, 0] x14 hs1)
      (shapeCast S1x64 x15 h15) x16 (shapeCast S1x1 x17 h17) p z
  unfold decAt
  refine congrArg₂ (· + ·) (Finset.sum_congr rfl fun j _ => ?_) ?_
  · rw [show lidx_main_v134 (ix2 p z) j = ix2 p j from idx2_eq _ _ _ rfl rfl,
      show ridx_main_v134 (ix2 p z) j = ix2 j z from idx2_eq _ _ _ rfl rfl]
    refine congrArg (· * x16 (ix2 j z)) ?_
    rw [val_main_v133_apply, val_main_v132_apply, val_main_v129_apply, val_main_v131_apply, val_main_v130_apply,
      val_main_call2_v0_apply]
    refine congrArg₂ max ?_ rfl
    unfold layerAt
    refine congrArg₂ (· + ·) ?_ ?_
    · rw [sum_join128]
      refine congrArg₂ (· + ·) (Finset.sum_congr rfl fun k _ => ?_) (Finset.sum_congr rfl fun k _ => ?_)
      · have hk : k.val < 128 := by have := k.isLt; omega
        rw [show lidx_main_v129 (ix2 p j) ⟨k.val, hk⟩ = ix2 p (⟨k.val, hk⟩ : Fin 128) from idx2_eq _ _ _ rfl rfl,
          show ridx_main_v129 (ix2 p j) ⟨k.val, hk⟩ = ix2 (⟨k.val, hk⟩ : Fin 128) j from idx2_eq _ _ _ rfl rfl]
        refine congrArg₂ (· * ·) ?_ ?_
        · unfold val_main_v128
          refine concatenate_pair_apply_left (t := S500000x128) (s₁ := S500000x64) (s₂ := S500000x64) 1 _ _ _
            (ix2 p (⟨k.val, hk⟩ : Fin 128)) rfl (ix2 p k) ?_
          intro b
          match b with
          | ⟨0, _⟩ => rfl
          | ⟨1, _⟩ => rfl
        · exact (slice2_axis0_apply 0 x14 hs0 k j ⟨k.val, hk⟩ (by simp)).symm
      · have hk : 64 + k.val < 128 := by have := k.isLt; omega
        rw [show lidx_main_v129 (ix2 p j) ⟨64 + k.val, hk⟩ = ix2 p (⟨64 + k.val, hk⟩ : Fin 128) from idx2_eq _ _ _ rfl rfl,
          show ridx_main_v129 (ix2 p j) ⟨64 + k.val, hk⟩ = ix2 (⟨64 + k.val, hk⟩ : Fin 128) j from idx2_eq _ _ _ rfl rfl]
        refine congrArg₂ (· * ·) ?_ ?_
        · unfold val_main_v128
          refine concatenate_pair_apply_right (t := S500000x128) (s₁ := S500000x64) (s₂ := S500000x64) 1 _ _ _
            (ix2 p (⟨64 + k.val, hk⟩ : Fin 128)) rfl rfl (ix2 p k) ?_ ?_
          · intro b hb
            match b, hb with
            | ⟨0, _⟩, _ => rfl
            | ⟨1, _⟩, hb => exact absurd rfl hb
          · show k.val + 64 = 64 + k.val
            omega
        · exact (slice2_axis0_apply 64 x14 hs1 k j ⟨64 + k.val, hk⟩ rfl).symm
    · rw [shapeCast_a_1a_apply]
      exact congrArg x15 (idx1_eq _ _ rfl)
  · rw [shapeCast_a_1a_apply]
    exact congrArg x17 (idx1_eq _ _ (by have := z.isLt; show 0 = z.val; omega))

/-- The reference's result: that decoder, its one column laid out as a vector. -/
theorem out_eq (hs0 : S128x64.Slices ![0, 0] S64x64) (hs1 : S128x64.Slices ![64, 0] S64x64)
    (h15 : S64.ShapeCasts S1x64) (h17 : S1.ShapeCasts S1x1) :
    val_main_v138 (F := Ideal) x0 x1 x2 x3 x4 x5 x6 x7 x8 x9 x10 x11 x12 x13 x14 x15 x16 x17 x18 x19 x20
      = shapeCast S500000 (dec (M := 500000) (val_main_v120 (F := Ideal) x0 x1 x2 x3 x4 x5 x6 x7 x11 x12 x13 x18 x19 x20) (val_main_v127 (F := Ideal) x0 x1 x2 x3 x4 x5 x6 x7 x8 x9 x10 x18 x19 x20)
      (extractStridedSlice S64x64 ![0, 0] x14 hs0) (extractStridedSlice S64x64 ![64, 0] x14 hs1)
      (shapeCast S1x64 x15 h15) x16 (shapeCast S1x1 x17 h17)) shapeCasts_S500000x1_S500000 := by
  unfold val_main_v138
  rw [dec_eq x0 x1 x2 x3 x4 x5 x6 x7 x8 x9 x10 x11 x12 x13 x14 x15 x16 x17 x18 x19 x20 hs0 hs1 h15 h17]

end Cert.ReferenceIdeal.RefValue

end
-- ==== Proof.KVal5.lean ====
/-
  The idealized kernel's result, named by the reference's last stage.

  The fifth host stretch gathers the customers' and recipes' embeddings along the supervision edges as the reference
  does, cuts the first decoder matrix into its top and bottom halves and views the two bias vectors as rows; the last
  launch leaves the decoder of those buffers; the last host operation lays its one column out as a vector. The
  reference's last stage is that same decoder (RefDecoder.lean), so the two results are one array.
-/
import proofs.«130146_j26018911879758_1_alg».proof.Proof.KVal4
import proofs.«130146_j26018911879758_1_alg».proof.Proof.Reg4
import proofs.«130146_j26018911879758_1_alg».proof.Proof.RefDecoder

set_option maxRecDepth 16384
set_option quotPrecheck false

noncomputable section

namespace Cert.KernelIdeal.KVal

open Idealize.ShloMosaic Idealize.ShloMosaic.TcCoe Idealize.ShloMosaic.Tactic Idealize.SL.Sem
open Idealize.ShloMosaic.Pipeline (Dat Cfg Window)
open Cert.KernelIdeal Cert.KernelIdeal.Gen Cert.Sage

variable (m : (ℓ : Loc nD τ sig) → Buf (Elt Ideal) ℓ) (ρ : Dev nD → PrngReg) (c : Dev nD)

local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)
local notation "X15" => m ((c : Thread nD τ).loc main_arg15)
local notation "X16" => m ((c : Thread nD τ).loc main_arg16)
local notation "X17" => m ((c : Thread nD τ).loc main_arg17)
local notation "X18" => m ((c : Thread nD τ).loc main_arg18)
local notation "X19" => m ((c : Thread nD τ).loc main_arg19)
local notation "X20" => m ((c : Thread nD τ).loc main_arg20)

/-! ## After host stretch 4 -/

theorem W9_main_v102 : W9 m ρ c (Proc.devRef .tc main_v102) = Cert.ReferenceIdeal.Read.val_main_v120 (F := Ideal) X0 X1 X2 X3 X4 X5 X6 X7 X11 X12 X13 X18 X19 X20 := by
  show StableHlo.after hostOps4 (W8 m ρ c) (Proc.devRef .tc main_v102) = _
  after_results_simp
  rw [W8_main_arg20 m ρ c, W8_main_v91 m ρ c]
  rfl

theorem W9_main_v109 : W9 m ρ c (Proc.devRef .tc main_v109) = Cert.ReferenceIdeal.Read.val_main_v127 (F := Ideal) X0 X1 X2 X3 X4 X5 X6 X7 X8 X9 X10 X18 X19 X20 := by
  show StableHlo.after hostOps4 (W8 m ρ c) (Proc.devRef .tc main_v109) = _
  after_results_simp
  rw [W8_main_arg20 m ρ c, W8_main_v70 m ρ c]
  rfl

theorem W9_main_v110 : W9 m ρ c (Proc.devRef .tc main_v110) = extractStridedSlice S64x64 ![0, 0] X14 slices_S128x64_S64x64_0_0 := by
  show StableHlo.after hostOps4 (W8 m ρ c) (Proc.devRef .tc main_v110) = _
  after_results_simp
  rw [W8_main_arg14 m ρ c]

theorem W9_main_v111 : W9 m ρ c (Proc.devRef .tc main_v111) = extractStridedSlice S64x64 ![64, 0] X14 slices_S128x64_S64x64_64_0 := by
  show StableHlo.after hostOps4 (W8 m ρ c) (Proc.devRef .tc main_v111) = _
  after_results_simp
  rw [W8_main_arg14 m ρ c]

theorem W9_main_v112 : W9 m ρ c (Proc.devRef .tc main_v112) = shapeCast S1x64 X15 shapeCasts_S64_S1x64 := by
  show StableHlo.after hostOps4 (W8 m ρ c) (Proc.devRef .tc main_v112) = _
  after_results_simp
  rw [W8_main_arg15 m ρ c]
  rfl

theorem W9_main_v113 : W9 m ρ c (Proc.devRef .tc main_v113) = shapeCast S1x1 X17 shapeCasts_S1_S1x1 := by
  show StableHlo.after hostOps4 (W8 m ρ c) (Proc.devRef .tc main_v113) = _
  after_results_simp
  rw [W8_main_arg17 m ρ c]
  rfl

theorem W9_main_arg16 : W9 m ρ c (Proc.devRef .tc main_arg16) = X16 :=
  (StableHlo.after_of_forall_not_mem (b := Proc.devRef .tc main_arg16) _ _ (List.forall_iff_forall_mem.mp (by host_untouched hostOps4))).trans (W8_main_arg16 m ρ c)

/-! ## After the last launch, and the result -/

theorem W10_main_v114 : W10 m ρ c (Proc.devRef .tc main_v114)
    = dec (M := 500000) (Cert.ReferenceIdeal.Read.val_main_v120 (F := Ideal) X0 X1 X2 X3 X4 X5 X6 X7 X11 X12 X13 X18 X19 X20) (Cert.ReferenceIdeal.Read.val_main_v127 (F := Ideal) X0 X1 X2 X3 X4 X5 X6 X7 X8 X9 X10 X18 X19 X20) (extractStridedSlice S64x64 ![0, 0] X14 slices_S128x64_S64x64_0_0) (extractStridedSlice S64x64 ![64, 0] X14 slices_S128x64_S64x64_64_0) (shapeCast S1x64 X15 shapeCasts_S64_S1x64) (X16) (shapeCast S1x1 X17 shapeCasts_S1_S1x1) :=
  (W10_arr m ρ c 7).trans ((Cert.KernelIdeal.Reg4.final (V9 m ρ) c).trans (by
    show dec (M := 500000) (W9 m ρ c (Proc.devRef .tc main_v102)) (W9 m ρ c (Proc.devRef .tc main_v109)) (W9 m ρ c (Proc.devRef .tc main_v110)) (W9 m ρ c (Proc.devRef .tc main_v111)) (W9 m ρ c (Proc.devRef .tc main_v112)) (W9 m ρ c (Proc.devRef .tc main_arg16)) (W9 m ρ c (Proc.devRef .tc main_v113)) = _
    rw [W9_main_v102 m ρ c, W9_main_v109 m ρ c, W9_main_v110 m ρ c, W9_main_v111 m ρ c, W9_main_v112 m ρ c, W9_main_arg16 m ρ c, W9_main_v113 m ρ c]))

/-- THE KERNEL'S RESULT is the reference's last stage of the same arguments. -/
theorem result_eq : W11 m ρ c (Proc.devRef .tc main_v115) = Cert.ReferenceIdeal.Read.val_main_v138 (F := Ideal) X0 X1 X2 X3 X4 X5 X6 X7 X8 X9 X10 X11 X12 X13 X14 X15 X16 X17 X18 X19 X20 := by
  show StableHlo.after hostOps5 (W10 m ρ c) (Proc.devRef .tc main_v115) = _
  after_results_simp
  rw [W10_main_v114 m ρ c]
  exact (Cert.ReferenceIdeal.RefValue.out_eq ..).symm

end Cert.KernelIdeal.KVal

end
-- ==== Proof.lean ====
/-
  A two-layer bipartite message-passing network with a decoder, as Pallas kernels, against its plain jnp reference.

  Both programs aggregate neighbour features by gather, scatter-add and a quotient by the clipped edge count, on the
  host, with the same operations in the same order. They differ in how the dense parts are computed: the kernel runs
  each layer's two matrix products, bias and optional maximum with zero as one launch over blocks of rows (operands
  narrowed to bf16, which is the identity on the extended reals), and the decoder as one launch that multiplies the
  customers' and the recipes' gathered embeddings by the top and bottom halves of the first decoder matrix; the
  reference uses host contractions, and contracts the concatenated embeddings with the whole matrix.

  On the extended reals each launch's output array is the layer (Sage.lean) of the arrays it finds (Reg0 .. Reg4), which
  is the reference's stage of the same arguments (RefLayers, RefDecoder: the only algebra is that a sum over the joined
  axis of width 128 is the sum of its two halves). Threading this through @main's eleven segments (KVal1 .. KVal5)
  shows the kernel's result buffer ends at the reference's last stage of the argument arrays. No finiteness of the
  inputs is used: only commutativity and associativity of addition on the extended reals.

  The three frames: the two kernels' are the generated frame certificates; the reference's is its generated run with
  the result forgotten. The idealized kernel is the kernel's own text read on the extended reals (no rewrite was
  made), so `preserves` asks nothing.
-/
import proofs.«130146_j26018911879758_1_alg».proof.Defs
import proofs.«130146_j26018911879758_1_alg».proof.Proof.Gen.Kernel
import proofs.«130146_j26018911879758_1_alg».proof.Proof.Gen.Kernel.Skeleton
import proofs.«130146_j26018911879758_1_alg».proof.Proof.Gen.Kernel.Launch
import proofs.«130146_j26018911879758_1_alg».proof.Proof.Gen.Kernel.Points
import proofs.«130146_j26018911879758_1_alg».proof.Proof.Gen.Kernel.Frame
import proofs.«130146_j26018911879758_1_alg».proof.Proof.Gen.KernelIdeal
import proofs.«130146_j26018911879758_1_alg».proof.Proof.Gen.KernelIdeal.Skeleton
import proofs.«130146_j26018911879758_1_alg».proof.Proof.Gen.KernelIdeal.Launch
import proofs.«130146_j26018911879758_1_alg».proof.Proof.Gen.KernelIdeal.Points
import proofs.«130146_j26018911879758_1_alg».proof.Proof.Gen.KernelIdeal.Frame
import proofs.«130146_j26018911879758_1_alg».proof.Proof.Gen.ReferenceIdeal
import proofs.«130146_j26018911879758_1_alg».proof.Proof.Gen.Pre_finite_inputs
import proofs.«130146_j26018911879758_1_alg».proof.Proof.Gen.ReferenceIdeal.Run
import proofs.«130146_j26018911879758_1_alg».proof.Proof.Gen.ReferenceIdeal.Read
import proofs.«130146_j26018911879758_1_alg».proof.Proof.KRun
import proofs.«130146_j26018911879758_1_alg».proof.Proof.KVal5
import Idealize.ShloMosaic.Adequacy
import Idealize.ShloMosaic.Init

set_option maxRecDepth 16384

noncomputable section

namespace Cert.Proof

open Idealize.ShloMosaic Idealize.SL.Sem

/-- From memories agreeing on the arguments both idealized programs run, and the kernel's result buffer ends holding
    what the reference's does: the reference's last stage of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W11 m ρ c (Proc.devRef .tc Cert.KernelIdeal.main_v115),
    Cert.KernelIdeal.RunV.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20⟩ := hagree c
  rw [Cert.ReferenceIdeal.Read.val_main_v138_eq, a0, a1, a2, a3, a4, a5, a6, a7, a8, a9, a10, a11, a12, a13, a14, a15, a16, a17, a18, a19, a20]
  exact (Cert.KernelIdeal.KVal.result_eq m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
